-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_arg4)) (v5 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S4x4096x256 : Shape := ⟨3, ![4, 4096, 256]⟩
abbrev S4x256 : Shape := ⟨2, ![4, 256]⟩
abbrev S4x2048x2048 : Shape := ⟨3, ![4, 2048, 2048]⟩
abbrev S4x2048x4096 : Shape := ⟨3, ![4, 2048, 4096]⟩
abbrev S4x4096x4096 : Shape := ⟨3, ![4, 4096, 4096]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S4x4096x256 : S_.BroadcastsInDim S4x4096x256 (![] : Fin 0 → Fin S4x4096x256.rank)
  reducesTo_S4x4096x256_S_d0_1_2 : S4x4096x256.ReducesTo [0, 1, 2] S_
  bcast_S_S4x256 : S_.BroadcastsInDim S4x256 (![] : Fin 0 → Fin S4x256.rank)
  reducesTo_S4x256_S_d0_1 : S4x256.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S4x4096x4096 : S_.BroadcastsInDim S4x4096x4096 (![] : Fin 0 → Fin S4x4096x4096.rank)
  reducesTo_S4x4096x4096_S_d0_1_2 : S4x4096x4096.ReducesTo [0, 1, 2] S_

variable [Facts]

def fn_part1 {F : FTy → Type} [FloatOps F] (main_arg4 : FVec F S4x2048x4096 .f32) (main_arg5 : FVec F S4x4096x4096 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048x4096 .f32 := Host.absf main_arg4
  let main_cst_6 : FVec F S_ .f32 := constant S_ .f32 0x7F800000#32
  let main_v20 : FVec F S4x2048x4096 .f32 := broadcastInDim S4x2048x4096 ![] bcast_S_S4x2048x4096 main_cst_6
  let main_v21 : IVec S4x2048x4096 1 := cmpf .olt main_v19 main_v20
  let main_c_7 : IVec S_ 1 := constantI S_ 1 1#1
  let main_v22 : IVec S_ 1 := (fun x v => Host.reduce IntOp.andi x v reducesTo_S4x2048x4096_S_d0_1_2 h_S_) main_v21 main_c_7
  let main_v23 : IVec S_ 1 := andi main_v18 main_v22
  let main_v24 : FVec F S4x4096x4096 .f32 := Host.absf main_arg5
  let main_cst_8 : FVec F S_ .f32 := constant S_ .f32 0x7F800000#32
  let main_v25 : FVec F S4x4096x4096 .f32 := broadcastInDim S4x4096x4096 ![] bcast_S_S4x4096x4096 main_cst_8
  let main_v26 : IVec S4x4096x4096 1 := cmpf .olt main_v24 main_v25
  let main_c_9 : IVec S_ 1 := constantI S_ 1 1#1
  let main_v27 : IVec S_ 1 := (fun x v => Host.reduce IntOp.andi x v reducesTo_S4x4096x4096_S_d0_1_2 h_S_) main_v26 main_c_9
  let main_v28 : IVec S_ 1 := andi main_v23 main_v27
  main_v28

def fn {F : FTy → Type} [FloatOps F] (main_arg0 : FVec F S4x2048x256 .f32) (main_arg1 : FVec F S4x4096x256 .f32) (main_arg2 : FVec F S4x256 .f32) (main_arg3 : FVec F S4x2048x2048 .f32) (main_arg4 : FVec F S4x2048x4096 .f32) (main_arg5 : FVec F S4x4096x4096 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_v13 main_v16
-- ==== Kernel.lean ====
abbrev S4x2048x256 : Shape := ⟨3, ![4, 2048, 256]⟩
abbrev S4x4096x256 : Shape := ⟨3, ![4, 4096, 256]⟩
abbrev S4x256 : Shape := ⟨2, ![4, 256]⟩
abbrev S4x2048x2048 : Shape := ⟨3, ![4, 2048, 2048]⟩
abbrev S4x2048x4096 : Shape := ⟨3, ![4, 2048, 4096]⟩
abbrev S4x4096x4096 : Shape := ⟨3, ![4, 4096, 4096]⟩
abbrev S1x1024x1024 : Shape := ⟨3, ![1, 1024, 1024]⟩
abbrev S1x1024x256 : Shape := ⟨3, ![1, 1024, 256]⟩
abbrev S1024x256 : Shape := ⟨2, ![1024, 256]⟩
abbrev S1024x1024 : Shape := ⟨2, ![1024, 1024]⟩
abbrev S4x1x256 : Shape := ⟨3, ![4, 1, 256]⟩
abbrev S1x512x1024 : Shape := ⟨3, ![1, 512, 1024]⟩
abbrev S1x512x256 : Shape := ⟨3, ![1, 512, 256]⟩
abbrev S1x1x256 : Shape := ⟨3, ![1, 1, 256]⟩
abbrev S512x256 : Shape := ⟨2, ![512, 256]⟩
abbrev S512x1024 : Shape := ⟨2, ![512, 1024]⟩
abbrev S1x256 : Shape := ⟨2, ![1, 256]⟩

abbrev nBuf : Space → Nat
  | .hbm => 9
  | .vmem => 20
  | .smem => 0
  | _ => 0

abbrev bufTy : (tb : Table) → Fin (tcTables nBuf tb) → BufTy
  | .hbm, ⟨0, _⟩ => ⟨S4x2048x256, .f32⟩
  | .hbm, ⟨1, _⟩ => ⟨S4x4096x256, .f32⟩
  | .hbm, ⟨2, _⟩ => ⟨S4x256, .f32⟩
  | .hbm, ⟨3, _⟩ => ⟨S4x2048x2048, .f32⟩
  | .hbm, ⟨4, _⟩ => ⟨S4x2048x4096, .f32⟩
  | .hbm, ⟨5, _⟩ => ⟨S4x4096x4096, .f32⟩
  | .hbm, ⟨6, _⟩ => ⟨S4x2048x256, .f32⟩
  | .hbm, ⟨7, _⟩ => ⟨S4x1x256, .f32⟩
  | .hbm, ⟨8, _⟩ => ⟨S4x2048x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | .local _ .vmem, ⟨7, _⟩ => ⟨S1x512x1024, .f32⟩
  | .local _ .vmem, ⟨8, _⟩ => ⟨S1x512x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x1x256, .f32⟩
  | .local _ .vmem, ⟨16, _⟩ => ⟨S1x1x256, .f32⟩
  | .local _ .vmem, ⟨17, _⟩ => ⟨S1x512x256, .f32⟩
  | .local _ .vmem, ⟨18, _⟩ => ⟨S1x512x256, .f32⟩
  | .local _ .vmem, ⟨19, _⟩ => ⟨S512x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  bcast_S4x256_S4x1x256_0_2 : S4x256.BroadcastsInDim S4x1x256 (![0, 2] : Fin 2 → Fin S4x1x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S512x256 : S1x256.Broadcasts S512x256
  shapeCasts_S512x256_S1x512x256 : S512x256.ShapeCasts S1x512x256
  dot_S1024x1024_S1024x256_S1024x256_0_0_1_1_n_n_wf : DotDims.WF S1024x1024 S1024x256 S1024x256 [0] [0] [1] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x2048.size a
  hwx0_0 : ∀ i : grid0.Coords, EltTy.bits .f32 = 32 ∨ (Rect.block (s := S4x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x2048x256.size a
  hwx0_1 : ∀ i : grid0.Coords, EltTy.bits .f32 = 32 ∨ (Rect.block (s := S4x2048x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S4x2048x256.size a
  hwx0_2 : ∀ i : grid0.Coords, EltTy.bits .f32 = 32 ∨ (Rect.block (s := S4x2048x256) S1x1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x4096.size a
  hwx1_0 : ∀ i : grid1.Coords, EltTy.bits .f32 = 32 ∨ (Rect.block (s := S4x2048x4096) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x4096x256.size a
  hwx1_1 : ∀ i : grid1.Coords, EltTy.bits .f32 = 32 ∨ (Rect.block (s := S4x4096x256) S1x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S4x2048x256.size a
  hwx1_2 : ∀ i : grid1.Coords, EltTy.bits .f32 = 32 ∨ (Rect.block (s := S4x2048x256) S1x512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S4x2048x256.size a
  hwx1_3 : ∀ i : grid1.Coords, EltTy.bits .f32 = 32 ∨ (Rect.block (s := S4x2048x256) S1x512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S4x1x256.size a
  hwx1_4 : ∀ i : grid1.Coords, EltTy.bits .f32 = 32 ∨ (Rect.block (s := S4x1x256) S1x1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x256.size a ≤ S4x2048x256.size a
  hwx1_5 : ∀ i : grid1.Coords, EltTy.bits .f32 = 32 ∨ (Rect.block (s := S4x2048x256) S1x512x256.size (cc1_transform_5 i) (hinb1_5 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg3) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x256 : Shape := ⟨3, ![4, 2048, 256]⟩
abbrev S4x4096x256 : Shape := ⟨3, ![4, 4096, 256]⟩
abbrev S4x256 : Shape := ⟨2, ![4, 256]⟩
abbrev S4x2048x2048 : Shape := ⟨3, ![4, 2048, 2048]⟩
abbrev S4x2048x4096 : Shape := ⟨3, ![4, 2048, 4096]⟩
abbrev S4x4096x4096 : Shape := ⟨3, ![4, 4096, 4096]⟩
abbrev S4x1x256 : Shape := ⟨3, ![4, 1, 256]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x4096x256, .f32⟩
  | .hbm, ⟨2, _⟩ => ⟨S4x256, .f32⟩
  | .hbm, ⟨3, _⟩ => ⟨S4x2048x2048, .f32⟩
  | .hbm, ⟨4, _⟩ => ⟨S4x2048x4096, .f32⟩
  | .hbm, ⟨5, _⟩ => ⟨S4x4096x4096, .f32⟩
  | .hbm, ⟨6, _⟩ => ⟨S4x2048x256, .f32⟩
  | .hbm, ⟨7, _⟩ => ⟨S4x2048x256, .f32⟩
  | .hbm, ⟨8, _⟩ => ⟨S4x2048x256, .f32⟩
  | .hbm, ⟨9, _⟩ => ⟨S4x2048x256, .f32⟩
  | .hbm, ⟨10, _⟩ => ⟨S4x1x256, .f32⟩
  | .hbm, ⟨11, _⟩ => ⟨S4x2048x256, .f32⟩
  | .hbm, ⟨12, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S4x256_S4x1x256_0_2 : S4x256.BroadcastsInDim S4x1x256 (![0, 2] : Fin 2 → Fin S4x1x256.rank)
  bcast_S4x1x256_S4x2048x256_0_1_2 : S4x1x256.BroadcastsInDim S4x2048x256 (![0, 1, 2] : Fin 3 → Fin S4x2048x256.rank)
  dot_S4x2048x2048_S4x2048x256_S4x2048x256_1_1_2_2_0_0_wf : DotDims.WF S4x2048x2048 S4x2048x256 S4x2048x256 [1] [1] [2] [2] [0] [0]
  dot_S4x2048x4096_S4x4096x256_S4x2048x256_2_1_1_2_0_0_wf : DotDims.WF S4x2048x4096 S4x4096x256 S4x2048x256 [2] [1] [1] [2] [0] [0]

variable [Facts₀]

def dot_S4x2048x2048_S4x2048x256_S4x2048x256_1_1_2_2_0_0 : DotDims S4x2048x2048 S4x2048x256 S4x2048x256 where
  lhsContracting := [1]
  rhsContracting := [1]
  lhsNonContracting := [2]
  rhsNonContracting := [2]
  lhsBatch := [0]
  rhsBatch := [0]
  wf := dot_S4x2048x2048_S4x2048x256_S4x2048x256_1_1_2_2_0_0_wf
def dot_S4x2048x4096_S4x4096x256_S4x2048x256_2_1_1_2_0_0 : DotDims S4x2048x4096 S4x4096x256 S4x2048x256 where
  lhsContracting := [2]
  rhsContracting := [1]
  lhsNonContracting := [1]
  rhsNonContracting := [2]
  lhsBatch := [0]
  rhsBatch := [0]
  wf := dot_S4x2048x4096_S4x4096x256_S4x2048x256_2_1_1_2_0_0_wf

class Facts : Prop extends Facts₀ where

variable [Facts]
-- ==== Proof.K.R0Runs.lean ====
import proofs.«130677_j58480274702421_2_alg».proof.Proof.Gen.Kernel.Launch
import proofs.«130677_j58480274702421_2_alg».proof.Proof.Gen.Kernel.Skeleton
import proofs.«130677_j58480274702421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the vertex pooling kernel): what its case runs share

The grid is (batch, output tile, reduction step) = 4 × 2 × 2, so a point's reduction step is its position modulo 2.
At step 0 the body first zeroes the accumulator; at every step it adds the block product into the accumulator; at the
last step (1) it copies the accumulator to the output block. -/
section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two conditions, in closed form over the grid -/

/-- "This is reduction step 0". -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last reduction step". -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the output block is neither stored nor written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At the last step it is stored. -/
theorem liveAt0_2_C : ∀ t : Fin cfg0.N, ¬cond0_0 (grid0.coords t) → cond0_1 (grid0.coords t) → cfg0.idle 2 (grid0.coords t) = false := by decide +kernel

/-! ## The memrefs the body is called with -/
abbrev VO0_2 : View sig .tc .vmem S1x1024x256 .f32 := (Memref.whole cc0_stg2_0 : Memref sig .tc .vmem S1x1024x256 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x256 .f32 := Memref.whole cc0_scratch0
abbrev VS0_0 : View sig .tc .vmem S1024x256 .f32 := scM0_0.view

/-- The class invariant with the accumulator split out as a memref owned at some contents; every other scoped buffer
    that is no staging buffer of this call stays unopened. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0_0, owns_whole, bigSepL]
  rfl

end Cert.Kernel.Fr

end
-- ==== Proof.K.R0RunA.lean ====
import proofs.«130677_j58480274702421_2_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- REDUCTION STEP 0. On whole staging memrefs — the two input blocks at their contents, the output's buffer (not stored at this
    step) at contents handed back untouched, the accumulator at anything — the body runs to the continuation holding the
    inputs as they were and the accumulator with its stores written: first the zero splat, then the zero plus the block
    product. The stores, as pieces (last first), are the witness the run finds. -/
noncomputable def kernelRun0_A (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) :
    Σ' (L2 : List (View.Piece (Elt F) S1x1024x256 .f32)), { LS0 : List (View.Piece (Elt F) S1024x256 .f32) //
      ∀ (xi2 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_vertices_kernel i arg3 harg3 arg4 harg4 arg5 harg5 arg6 harg6) K } := by
  refine ⟨[], ?_, fun xi2 E K => ?run⟩
  case run =>
    simp only [cc0__pool_vertices_kernel_eq_skeleton]; unfold cc0__pool_vertices_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.K.R0RunC.lean ====
import proofs.«130677_j58480274702421_2_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE LAST REDUCTION STEP. The two input blocks at their contents, the output's buffer at anything, the accumulator at what the
    step before left: the body runs to the continuation holding the inputs as they were, the accumulator with the sum plus the
    block product written, and the output's buffer with the accumulator's new contents written. -/
noncomputable def kernelRun0_C (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) :
    Σ' (L2 : List (View.Piece (Elt F) S1x1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__pool_vertices_kernel i arg3 harg3 arg4 harg4 arg5 harg5 arg6 harg6) K } := by
  refine ⟨?_, ?_, fun E K => ?run⟩
  case run =>
    simp only [cc0__pool_vertices_kernel_eq_skeleton]; unfold cc0__pool_vertices_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.K.Region0.lean ====
import proofs.«130677_j58480274702421_2_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each grid point leaves, and the body obligation

The accumulator after the body at a point, and the output's staging buffer after it, are read off the stores the case's run
found. Along a (batch, tile) pair the two reduction steps follow each other: step 0 starts from the zero splat, step 1 from
what step 0 left. -/

/-- Step 0 stores nothing into the output's buffer: a placeholder nothing consults (the block is not written back there). -/
def out0_A_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) : Vec F S1x1024x256 .f32 :=
  VO0_2.read (Elt F) (VO0_2.writes (Elt F) VO0_2.junk (kernelRun0_A c i arg3 harg3 arg4 harg4 arg5 harg5 arg6 harg6 hc0 hc1 x0 x1).1)
/-- Step 0's stores into the accumulator cover it. -/
theorem scover0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) (y : S1024x256.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x256.size (by sl_kernel_rfl) y
/-- What step 0 leaves in the accumulator. -/
def sout0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) : Vec F S1024x256 .f32 :=
  VS0_0.read (Elt F) (VS0_0.writes (Elt F) VS0_0.junk (kernelRun0_A c i arg3 harg3 arg4 harg4 arg5 harg5 arg6 harg6 hc0 hc1 x0 x1).2.1)

/-- The last step's store into the output's buffer covers it. -/
theorem cover0_C_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) (y : S1x1024x256.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1024x256.size (by sl_kernel_rfl) y
/-- What the last step leaves in the output's buffer. -/
def out0_C_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) : Vec F S1x1024x256 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) (y : S1024x256.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x256.size (by sl_kernel_rfl) y
/-- What the last step leaves in the accumulator. -/
def sout0_C_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) : Vec F S1024x256 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. The output's staging buffer and the accumulator after the body at position `n`: at an even position
    (reduction step 0) step 0's contents of the point's two input blocks; at an odd one the last step's, over what the
    position before left in the accumulator. -/
def outsAt0 (c : Dev nD) : (n : ℕ) → n < cfg0.N → Vec F S1x1024x256 .f32 × Vec F S1024x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => absurd (show 0 % 2 = 1 from (hcond0_1 ⟨0, hn⟩).mp h) (by decide)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => absurd (show 0 % 2 = 1 from (hcond0_1 ⟨0, hn⟩).mp h) (by decide)) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd (show (n + 1) % 2 = 1 from (hcond0_1 ⟨n + 1, hn⟩).mp h) (by omega)) (iblk0 V c 0 ⟨n + 1, hn⟩) (iblk0 V c 1 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd (show (n + 1) % 2 = 1 from (hcond0_1 ⟨n + 1, hn⟩).mp h) (by omega)) (iblk0 V c 0 ⟨n + 1, hn⟩) (iblk0 V c 1 ⟨n + 1, hn⟩))
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (outsAt0 c n (Nat.lt_of_succ_lt hn)).2)

/-- `outsAt0` at a point of reduction step 0. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t)) := by
  obtain ⟨n, hn⟩ := t
  cases n with
  | zero => exact rfl
  | succ n => exact (dif_pos h0).trans rfl

/-- `outsAt0` at a point of the last reduction step: over what the point before left. -/
theorem outsAt0_C (c : Dev nD) (t : Fin cfg0.N) (h0 : ¬t.val % 2 = 0) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The region invariant before position `n`: before the first point the class's (every scoped buffer of the call's own at
    anything); afterwards the accumulator at what the point before left, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of pipeline 0 on core `c`: the arrays as the region finds them; after the body at a point each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position's parity says which reduction step it is; the
    invariant hands the body the accumulator (at anything at step 0, at what the point before left at the last step) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · rw [Dat.leavesExact_idle (dat0 V c) 2 t (idleAt0_2_A t ((hcond0_0 t).mpr h0) (fun h => absurd ((hcond0_1 t).mp h) (by omega))) (noFlush0_2_A t ((hcond0_0 t).mpr h0) (fun h => absurd ((hcond0_1 t).mp h) (by omega)))]
    rw [outsAt0_A V c t h0]
    unfold sout0_A_0; (try dsimp only)
    have hrun := fun xi2 K => (kernelRun0_A c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t)).2.2 xi2 Set.univ K
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr (by omega))], after0_2]
    rw [outsAt0_C V c t h0]
    unfold out0_C_2 sout0_C_0; (try dsimp only)
    have hz : t.val ≠ 0 := by omega
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 16 := N_0; omega)

end

end Cert.Kernel.Fr

end
-- ==== Proof.K.R1Runs.lean ====
import proofs.«130677_j58480274702421_2_alg».proof.Proof.Gen.Kernel.Launch
import proofs.«130677_j58480274702421_2_alg».proof.Proof.Gen.Kernel.Skeleton
import proofs.«130677_j58480274702421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the finishing kernel): what its case runs share

The grid is (batch, output tile, reduction step) = 4 × 4 × 4, so a point's reduction step is its position modulo 4. At step 0
the body first zeroes the accumulator; at every step it adds the block product into it; at the last step (3) it stores the
accumulator plus the pooled block plus the vertex block plus the broadcast row into the output block. -/
section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-- "This is reduction step 0". -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last reduction step". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last step the output block is neither stored nor written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5_C : ∀ t : Fin cfg1.N, cond1_1 (grid1.coords t) → cfg1.idle 5 (grid1.coords t) = false := by decide +kernel

abbrev VO1_5 : View sig .tc .vmem S1x512x256 .f32 := (Memref.whole cc1_stg5_0 : Memref sig .tc .vmem S1x512x256 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x256 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S512x256 .f32 := Memref.whole cc1_scratch0
abbrev VS1_0 : View sig .tc .vmem S512x256 .f32 := scM1_0.view

/-- The class invariant with the accumulator split out as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole, bigSepL]
  rfl

end Cert.Kernel.Fr

end
-- ==== Proof.K.R1RunA.lean ====
import proofs.«130677_j58480274702421_2_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- REDUCTION STEP 0: the accumulator at anything; it ends with the zero splat and then zero plus the block product written. -/
noncomputable def kernelRun1_A (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) :
    Σ' (L5 : List (View.Piece (Elt F) S1x512x256 .f32)), { LS0 : List (View.Piece (Elt F) S512x256 .f32) //
      ∀ (xi5 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨[], ?_, fun xi5 E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunB.lean ====
import proofs.«130677_j58480274702421_2_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE REDUCTION STEP: the accumulator at what the step before left; it ends with that plus the block product written. -/
noncomputable def kernelRun1_B (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) :
    Σ' (L5 : List (View.Piece (Elt F) S1x512x256 .f32)), { LS0 : List (View.Piece (Elt F) S512x256 .f32) //
      ∀ (xi5 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨[], ?_, fun xi5 E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunC.lean ====
import proofs.«130677_j58480274702421_2_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST REDUCTION STEP: the accumulator at what the step before left, the output's buffer at anything; the accumulator ends with the
    sum plus the block product written, the output's buffer with that plus the pooled block, the vertex block and the row. -/
noncomputable def kernelRun1_C (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) :
    Σ' (L5 : List (View.Piece (Elt F) S1x512x256 .f32)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨?_, ?_, fun E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Region1.lean ====
import proofs.«130677_j58480274702421_2_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each grid point leaves, and the body obligation

Along a (batch, tile) pair the four reduction steps follow each other: step 0 starts from the zero splat, each later step from
what the step before left in the accumulator; the last step also stores the output block. -/

def out1_A_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) : Vec F S1x512x256 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)
theorem scover1_A_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (y : S512x256.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x256.size (by sl_kernel_rfl) y
def sout1_A_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) : Vec F S512x256 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

def out1_B_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S1x512x256 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)
theorem scover1_B_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S512x256.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x256.size (by sl_kernel_rfl) y
def sout1_B_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S512x256 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

theorem cover1_C_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S1x512x256.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x256.size (by sl_kernel_rfl) y
def out1_C_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S1x512x256 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem scover1_C_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S512x256.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x256.size (by sl_kernel_rfl) y
def sout1_C_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S512x256 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section
variable (V : (c : Dev nD) → (b : Ref sig .tc) → Buf (Elt F) ((c : Thread nD τ).loc b))

/-- THE ACCUMULATION. The output's staging buffer and the accumulator after the body at position `n`, by the position's
    reduction step (`n` modulo 4): step 0's contents; a middle step's or the last step's over what the position before left. -/
def outsAt1 (c : Dev nD) : (n : ℕ) → n < cfg1.N → Vec F S1x512x256 .f32 × Vec F S512x256 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 4 = 3 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 4 = 3 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => absurd (show (n + 1) % 4 = 3 from (hcond1_1 ⟨n + 1, hn⟩).mp h) (by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => absurd (show (n + 1) % 4 = 3 from (hcond1_1 ⟨n + 1, hn⟩).mp h) (by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: the class's before the first point; afterwards the accumulator at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the position modulo 4 says which reduction step it is; the
    invariant hands the body the accumulator and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have hn1 : ¬cond1_1 (grid1.coords t) := fun h => absurd ((hcond1_1 t).mp h) (by omega)
    rw [Dat.leavesExact_idle (dat1 V c) 5 t (idleAt1_5 t hn1) (noFlush1_5 t hn1)]
    rw [outsAt1_A V c t h0]
    unfold sout1_A_0; (try dsimp only)
    have hrun := fun xi5 K => (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)).2.2 xi5 Set.univ K
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5_C t ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hn1 : ¬cond1_1 (grid1.coords t) := fun h => h1 ((hcond1_1 t).mp h)
      rw [Dat.leavesExact_idle (dat1 V c) 5 t (idleAt1_5 t hn1) (noFlush1_5 t hn1)]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end

end Cert.Kernel.Fr

end
-- ==== Proof.K.Assembly.lean ====
import proofs.«130677_j58480274702421_2_alg».proof.Proof.K.Region0
import proofs.«130677_j58480274702421_2_alg».proof.Proof.K.Region1
import proofs.«130677_j58480274702421_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the two-region program: the buffer contents at each boundary, the regions as segments, the launch

## The buffer contents at each segment boundary: a fold through the program -/

/-- Core `c`'s buffers at launch (the first region is entered from them: no host operation precedes it). -/
abbrev W0 : Dev nD → Valuation τ sig (Elt F) := fun c b => m ((c : Dev nD), b)
/-- The same read at the TensorCore's references: the first region's entry contents. -/
abbrev Va : (c : Dev nD) → (b : Ref sig .tc) → Buf (Elt F) ((c : Thread nD τ).loc b) := fun c b => W0 m c b
/-- At the first region's exit: its arrays at what the pipeline leaves (the inputs as entered, the output's
    write-backs folded), every other buffer as entered. -/
def Wmid (c : Dev nD) : Valuation τ sig (Elt F) :=
  Pipeline.withArrays spec0 c (W0 m c) fun w => (dat0 (Va m) c).arrAt w cfg0.N
theorem Wmid_arr (c : Dev nD) (w : Fin cfg0.W) :
    Wmid m c (Proc.devRef .tc (Pipeline.arrRef spec0 w)) = (dat0 (Va m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m c (Proc.devRef .tc b) = W0 m c (Proc.devRef .tc b) := by
  unfold Wmid; exact Pipeline.withArrays_of_ne spec0 c _ _ b hb
/-- The same read at the TensorCore's references (the first region's exit contents). -/
abbrev Vmid : (c : Dev nD) → (b : Ref sig .tc) → Buf (Elt F) ((c : Thread nD τ).loc b) := fun c b => Wmid m c b
/-- At the first region's exit each of its arrays holds what the pipeline leaves, and every other buffer what it
    held at entry. -/
theorem hF0 (c : Dev nD) (w : Fin cfg0.W) : (dat0 (Va m) c).arrAt w cfg0.N = Vmid m c (Pipeline.arrRef spec0 w) :=
  (Wmid_arr m c w).symm
theorem hrest0 (c : Dev nD) : ∀ b, b ∉ Finset.univ.image (Pipeline.arrRef spec0) → Vmid m c b = Va m c b :=
  fun b hb => Wmid_of_ne m c b fun w e => hb (Finset.mem_image.mpr ⟨w, Finset.mem_univ _, e⟩)

/-- After the host stretch between the regions (the second region's entry). -/
abbrev Wb : Dev nD → Valuation τ sig (Elt F) := fun c => StableHlo.after hostOps1 (Wmid m c)
/-- The same read at the TensorCore's references: the second region's entry contents. -/
abbrev Vb : (c : Dev nD) → (b : Ref sig .tc) → Buf (Elt F) ((c : Thread nD τ).loc b) := fun c b => Wb m c b
/-- At the second region's exit: its arrays at what the pipeline leaves, every other buffer as entered. -/
def Wend (c : Dev nD) : Valuation τ sig (Elt F) :=
  Pipeline.withArrays spec1 c (Wb m c) fun w => (dat1 (Vb m) c).arrAt w cfg1.N
theorem Wend_arr (c : Dev nD) (w : Fin cfg1.W) :
    Wend m c (Proc.devRef .tc (Pipeline.arrRef spec1 w)) = (dat1 (Vb m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m c (Proc.devRef .tc b) = Wb m c (Proc.devRef .tc b) := by
  unfold Wend; exact Pipeline.withArrays_of_ne spec1 c _ _ b hb
/-- The same read at the TensorCore's references (the second region's exit contents). -/
abbrev Vend : (c : Dev nD) → (b : Ref sig .tc) → Buf (Elt F) ((c : Thread nD τ).loc b) := fun c b => Wend m c b
theorem hF1 (c : Dev nD) (w : Fin cfg1.W) : (dat1 (Vb m) c).arrAt w cfg1.N = Vend m c (Pipeline.arrRef spec1 w) :=
  (Wend_arr m c w).symm
theorem hrest1 (c : Dev nD) : ∀ b, b ∉ Finset.univ.image (Pipeline.arrRef spec1) → Vend m c b = Vb m c b :=
  fun b hb => Wend_of_ne m c b fun w e => hb (Finset.mem_image.mpr ⟨w, Finset.mem_univ _, e⟩)

/-- The host stretch writes one buffer only: every other buffer is after it what it was before it. -/
theorem Wb_of (c : Dev nD) (r : Ref sig .tc) (h : r ∉ (hostOps1_W : List (Ref sig .tc))) :
    Wb m c (Proc.devRef .tc r) = Wmid m c (Proc.devRef .tc r) :=
  StableHlo.after_of_writes_sub hostOps1 _ hostOps1_writes h

/-! ## The arguments end as launched, and what the second region finds

No host operation and no region writes an argument (a region reads it through an input window or bypasses it), so the
fold at an argument's buffer walks back to the launch memory. -/

theorem Wmid_main_arg0 (c : Dev nD) : Wmid m c (Proc.devRef .tc main_arg0) = m ((c : Thread nD τ).loc main_arg0) :=
  (Wmid_arr m c 1).trans (((dat0 (Va m) c).arrAt_in 1 rfl _).trans (A_eq0 (Va m) c 1))
theorem Wmid_main_arg1 (c : Dev nD) : Wmid m c (Proc.devRef .tc main_arg1) = m ((c : Thread nD τ).loc main_arg1) :=
  Wmid_of_ne m c main_arg1 (by decide)
theorem Wmid_main_arg2 (c : Dev nD) : Wmid m c (Proc.devRef .tc main_arg2) = m ((c : Thread nD τ).loc main_arg2) :=
  Wmid_of_ne m c main_arg2 (by decide)
theorem Wmid_main_arg3 (c : Dev nD) : Wmid m c (Proc.devRef .tc main_arg3) = m ((c : Thread nD τ).loc main_arg3) :=
  (Wmid_arr m c 0).trans (((dat0 (Va m) c).arrAt_in 0 rfl _).trans (A_eq0 (Va m) c 0))
theorem Wmid_main_arg4 (c : Dev nD) : Wmid m c (Proc.devRef .tc main_arg4) = m ((c : Thread nD τ).loc main_arg4) :=
  Wmid_of_ne m c main_arg4 (by decide)
theorem Wmid_main_arg5 (c : Dev nD) : Wmid m c (Proc.devRef .tc main_arg5) = m ((c : Thread nD τ).loc main_arg5) :=
  Wmid_of_ne m c main_arg5 (by decide)

/-- The first region's entry contents are the launch contents. -/
theorem Va_eq (c : Dev nD) (b : Ref sig .tc) : Va m c b = m ((c : Thread nD τ).loc b) := rfl

theorem Vb_main_arg0 (c : Dev nD) : Vb m c main_arg0 = m ((c : Thread nD τ).loc main_arg0) :=
  (Wb_of m c main_arg0 (by decide)).trans (Wmid_main_arg0 m c)
theorem Vb_main_arg1 (c : Dev nD) : Vb m c main_arg1 = m ((c : Thread nD τ).loc main_arg1) :=
  (Wb_of m c main_arg1 (by decide)).trans (Wmid_main_arg1 m c)
theorem Vb_main_arg2 (c : Dev nD) : Vb m c main_arg2 = m ((c : Thread nD τ).loc main_arg2) :=
  (Wb_of m c main_arg2 (by decide)).trans (Wmid_main_arg2 m c)
theorem Vb_main_arg3 (c : Dev nD) : Vb m c main_arg3 = m ((c : Thread nD τ).loc main_arg3) :=
  (Wb_of m c main_arg3 (by decide)).trans (Wmid_main_arg3 m c)
theorem Vb_main_arg4 (c : Dev nD) : Vb m c main_arg4 = m ((c : Thread nD τ).loc main_arg4) :=
  (Wb_of m c main_arg4 (by decide)).trans (Wmid_main_arg4 m c)
theorem Vb_main_arg5 (c : Dev nD) : Vb m c main_arg5 = m ((c : Thread nD τ).loc main_arg5) :=
  (Wb_of m c main_arg5 (by decide)).trans (Wmid_main_arg5 m c)

/-- The first region's output as the second region finds it: the host stretch between them does not write it. -/
theorem Vb_main_v0 (c : Dev nD) : Vb m c main_v0 = (dat0 (Va m) c).arrAt 2 cfg0.N :=
  (Wb_of m c main_v0 (by decide)).trans (Wmid_arr m c 2)

/-- The host stretch's one result as the second region finds it: the broadcast of the third argument's launch contents. -/
theorem Vb_main_v1 (c : Dev nD) :
    Vb m c main_v1 = broadcastInDim S4x1x256 ![0, 2] bcast_S4x256_S4x1x256_0_2 (m ((c : Thread nD τ).loc main_arg2)) := by
  have e : Vb m c main_v1 = broadcastInDim S4x1x256 ![0, 2] bcast_S4x256_S4x1x256_0_2 (Wmid m c (Proc.devRef .tc main_arg2)) := by
    show StableHlo.after hostOps1 (Wmid m c) (Proc.devRef .tc main_v1) = _
    dsimp only [hostOps1]; after_results
  rw [e, Wmid_main_arg2]

theorem Wend_main_arg0 (c : Dev nD) : Wend m c (Proc.devRef .tc main_arg0) = m ((c : Thread nD τ).loc main_arg0) :=
  (Wend_arr m c 3).trans (((dat1 (Vb m) c).arrAt_in 3 rfl _).trans ((A_eq1 (Vb m) c 3).trans (Vb_main_arg0 m c)))
theorem Wend_main_arg1 (c : Dev nD) : Wend m c (Proc.devRef .tc main_arg1) = m ((c : Thread nD τ).loc main_arg1) :=
  (Wend_arr m c 1).trans (((dat1 (Vb m) c).arrAt_in 1 rfl _).trans ((A_eq1 (Vb m) c 1).trans (Vb_main_arg1 m c)))
theorem Wend_main_arg2 (c : Dev nD) : Wend m c (Proc.devRef .tc main_arg2) = m ((c : Thread nD τ).loc main_arg2) :=
  (Wend_of_ne m c main_arg2 (by decide)).trans (Vb_main_arg2 m c)
theorem Wend_main_arg3 (c : Dev nD) : Wend m c (Proc.devRef .tc main_arg3) = m ((c : Thread nD τ).loc main_arg3) :=
  (Wend_of_ne m c main_arg3 (by decide)).trans (Vb_main_arg3 m c)
theorem Wend_main_arg4 (c : Dev nD) : Wend m c (Proc.devRef .tc main_arg4) = m ((c : Thread nD τ).loc main_arg4) :=
  (Wend_arr m c 0).trans (((dat1 (Vb m) c).arrAt_in 0 rfl _).trans ((A_eq1 (Vb m) c 0).trans (Vb_main_arg4 m c)))
theorem Wend_main_arg5 (c : Dev nD) : Wend m c (Proc.devRef .tc main_arg5) = m ((c : Thread nD τ).loc main_arg5) :=
  (Wend_of_ne m c main_arg5 (by decide)).trans (Vb_main_arg5 m c)

/-! ## The proof data family and the thread state -/

/-- The prefetched tables' admissible contents: no pipeline has a table. -/
abbrev adm₀ : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm₀ p) c
  | ⟨0, _⟩ => fun c => dat0 (Va m) c
  | ⟨1, _⟩ => fun c => dat1 (Vb m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (Wend m c) ∗ ∃ r, prngReg c r)

/-! ## The regions as segments -/

-- a library lemma stated over the pinned configuration unifies with the printed one only when unification may unfold
-- plain definitions in a metavariable's type
set_option backward.isDefEq.respectTransparency.types false in
/-- REGION 0 over the thread state: its arrays split out of the unscoped buffers at entry and put back at the exit
    contents; the generator register into the region's invariant and out; nothing owed; no semaphore of the kernel's own. -/
def reg0 : Pipeline.RegionSeg (pcfgs (F := F)) adm₀ (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L₀ lv₀ 0 fun _ _ => rfl
  pre c := iprop(StableHlo.held (c : Thread nD τ) (Pipeline.ucRefs τ sig) (W0 m c) ∗ R c)
  post c := iprop(StableHlo.held (c : Thread nD τ) (Pipeline.ucRefs τ sig) (Wmid m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm₀ (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm₀ (Ix := Unit) (Name := ℕ) (U := UR sig nD τ) (Lvl := ℕ)
      launch0.win launch0.arr_whole c (pdats m) ((pdats m 0 c).share_full fun _ => rfl)
      (Va m c) (Vmid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: its arrays split out of the unscoped buffers at entry and put back at the exit
    contents; the generator register into the region's invariant and out; nothing owed; no semaphore of the kernel's own. -/
def reg1 : Pipeline.RegionSeg (pcfgs (F := F)) adm₀ (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L₀ lv₀ 1 fun _ _ => rfl
  pre c := iprop(StableHlo.held (c : Thread nD τ) (Pipeline.ucRefs τ sig) (Wb m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm₀ (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vb m) c)
    unfold Pipeline.ΦA
    iintro ⟨Hp, -, Hr⟩
    isplitl [Hr]; · iexact Hr
    iexact Hp
  hout c := by
    rw [Pipeline.ownSems0_none]
    refine BIBase.Entails.trans (hout1 (Vb m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₀ (Ix := Unit) (Name := ℕ) (U := UR sig nD τ) (Lvl := ℕ)
      launch1.win launch1.arr_whole c (pdats m) ((pdats m 1 c).share_full fun _ => rfl)
      (Vb m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the first region, the host stretch between the regions from the first
    region's exit contents, the second region. -/
abbrev segs : List (Pipeline.Seg (pcfgs (F := F)) adm₀ (pdats m) () defs₀ 𝒱₀ L₀ lv₀) :=
  [ .region (reg0 m),
    .host (hseg hostOps1 hostOps1_sub hostOps1_fresh (Wmid m)),
    .region (reg1 m) ]
/-- The program IS the run of the segments. -/
theorem main_run (c : Dev nD) : main (F := F) c = Pipeline.Seg.run (segs m) :=
  main_segs adm₀ (pdats m) () 𝒱₀ L₀ lv₀ (hseg hostOps1 hostOps1_sub hostOps1_fresh (Wmid m)) (reg0 m) (reg1 m) rfl c

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state every unscoped buffer holds the last boundary's contents
    `Wend`: the launch over the segments, the last thread state read against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm₀ (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

/-- THE FRAME, at any float values: every weakly fair execution of the program terminates, nothing faulting, and every
    final state has the six argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wend_main_arg0 m c),
      (h c _ (mem_uc main_arg1 (by decide))).trans (Wend_main_arg1 m c),
      (h c _ (mem_uc main_arg2 (by decide))).trans (Wend_main_arg2 m c),
      (h c _ (mem_uc main_arg3 (by decide))).trans (Wend_main_arg3 m c),
      (h c _ (mem_uc main_arg4 (by decide))).trans (Wend_main_arg4 m c),
      (h c _ (mem_uc main_arg5 (by decide))).trans (Wend_main_arg5 m c)⟩)
    (run_all m ρ)

/-- The run with the result named: the program's result buffer ends at what the second region's write-backs leave
    in its output window's array, and the six argument arrays end as launched. -/
theorem run_named (ρ : Dev nD → PrngReg) : θ_run defs (onTc (τ := τ) (main (F := F))) ⟨m, fun _ => 0, ρ⟩ (fun r => ∀ c : Dev nD,
      r.2.mem ((c.tc : Thread nD τ).loc main_v2) = (dat1 (Vb m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (Wend_arr m c 5),
      (h c _ (mem_uc main_arg0 (by decide))).trans (Wend_main_arg0 m c),
      (h c _ (mem_uc main_arg1 (by decide))).trans (Wend_main_arg1 m c),
      (h c _ (mem_uc main_arg2 (by decide))).trans (Wend_main_arg2 m c),
      (h c _ (mem_uc main_arg3 (by decide))).trans (Wend_main_arg3 m c),
      (h c _ (mem_uc main_arg4 (by decide))).trans (Wend_main_arg4 m c),
      (h c _ (mem_uc main_arg5 (by decide))).trans (Wend_main_arg5 m c)⟩)
    (run_all m ρ)

end Cert.Kernel.Fr

end
-- ==== Proof.KI.R0Runs.lean ====
import proofs.«130677_j58480274702421_2_alg».proof.Proof.Gen.KernelIdeal.Launch
import proofs.«130677_j58480274702421_2_alg».proof.Proof.Gen.KernelIdeal.Skeleton
import proofs.«130677_j58480274702421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the vertex pooling kernel): what its case runs share

The grid is (batch, output tile, reduction step) = 4 × 2 × 2, so a point's reduction step is its position modulo 2.
At step 0 the body first zeroes the accumulator; at every step it adds the block product into the accumulator; at the
last step (1) it copies the accumulator to the output block. -/
section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two conditions, in closed form over the grid -/

/-- "This is reduction step 0". -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last reduction step". -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
/-- At step 0 the output block is neither stored nor written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At the last step it is stored. -/
theorem liveAt0_2_C : ∀ t : Fin cfg0.N, ¬cond0_0 (grid0.coords t) → cond0_1 (grid0.coords t) → cfg0.idle 2 (grid0.coords t) = false := by decide +kernel

/-! ## The memrefs the body is called with -/
abbrev VO0_2 : View sig .tc .vmem S1x1024x256 .f32 := (Memref.whole cc0_stg2_0 : Memref sig .tc .vmem S1x1024x256 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x256 .f32 := Memref.whole cc0_scratch0
abbrev VS0_0 : View sig .tc .vmem S1024x256 .f32 := scM0_0.view

/-- The class invariant with the accumulator split out as a memref owned at some contents; every other scoped buffer
    that is no staging buffer of this call stays unopened. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0_0, owns_whole, bigSepL]
  rfl

end Cert.KernelIdeal.Fr

end
-- ==== Proof.KI.R0RunA.lean ====
import proofs.«130677_j58480274702421_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- REDUCTION STEP 0. On whole staging memrefs — the two input blocks at their contents, the output's buffer (not stored at this
    step) at contents handed back untouched, the accumulator at anything — the body runs to the continuation holding the
    inputs as they were and the accumulator with its stores written: first the zero splat, then the zero plus the block
    product. The stores, as pieces (last first), are the witness the run finds. -/
noncomputable def kernelRun0_A (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) :
    Σ' (L2 : List (View.Piece (Elt F) S1x1024x256 .f32)), { LS0 : List (View.Piece (Elt F) S1024x256 .f32) //
      ∀ (xi2 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pool_vertices_kernel i arg3 harg3 arg4 harg4 arg5 harg5 arg6 harg6) K } := by
  refine ⟨[], ?_, fun xi2 E K => ?run⟩
  case run =>
    simp only [cc0__pool_vertices_kernel_eq_skeleton]; unfold cc0__pool_vertices_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R0RunC.lean ====
import proofs.«130677_j58480274702421_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE LAST REDUCTION STEP. The two input blocks at their contents, the output's buffer at anything, the accumulator at what the
    step before left: the body runs to the continuation holding the inputs as they were, the accumulator with the sum plus the
    block product written, and the output's buffer with the accumulator's new contents written. -/
noncomputable def kernelRun0_C (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) :
    Σ' (L2 : List (View.Piece (Elt F) S1x1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__pool_vertices_kernel i arg3 harg3 arg4 harg4 arg5 harg5 arg6 harg6) K } := by
  refine ⟨?_, ?_, fun E K => ?run⟩
  case run =>
    simp only [cc0__pool_vertices_kernel_eq_skeleton]; unfold cc0__pool_vertices_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Region0.lean ====
import proofs.«130677_j58480274702421_2_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each grid point leaves, and the body obligation

The accumulator after the body at a point, and the output's staging buffer after it, are read off the stores the case's run
found. Along a (batch, tile) pair the two reduction steps follow each other: step 0 starts from the zero splat, step 1 from
what step 0 left. -/

/-- Step 0 stores nothing into the output's buffer: a placeholder nothing consults (the block is not written back there). -/
def out0_A_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) : Vec F S1x1024x256 .f32 :=
  VO0_2.read (Elt F) (VO0_2.writes (Elt F) VO0_2.junk (kernelRun0_A c i arg3 harg3 arg4 harg4 arg5 harg5 arg6 harg6 hc0 hc1 x0 x1).1)
/-- Step 0's stores into the accumulator cover it. -/
theorem scover0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) (y : S1024x256.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x256.size (by sl_kernel_rfl) y
/-- What step 0 leaves in the accumulator. -/
def sout0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : cond0_0 i) (hc1 : ¬cond0_1 i)
    (x0 : Vec F S1x1024x1024 .f32) (x1 : Vec F S1x1024x256 .f32) : Vec F S1024x256 .f32 :=
  VS0_0.read (Elt F) (VS0_0.writes (Elt F) VS0_0.junk (kernelRun0_A c i arg3 harg3 arg4 harg4 arg5 harg5 arg6 harg6 hc0 hc1 x0 x1).2.1)

/-- The last step's store into the output's buffer covers it. -/
theorem cover0_C_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) (y : S1x1024x256.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1024x256.size (by sl_kernel_rfl) y
/-- What the last step leaves in the output's buffer. -/
def out0_C_2 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) : Vec F S1x1024x256 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) (y : S1024x256.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x256.size (by sl_kernel_rfl) y
/-- What the last step leaves in the accumulator. -/
def sout0_C_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1024x256 .f32) (harg6 : arg6.IsWhole) (hc0 : ¬cond0_0 i) (hc1 : cond0_1 i)
    (x0 : Vec F S1x1024x1024 .f32) (x1 : Vec F S1x1024x256 .f32) (xs0 : Vec F S1024x256 .f32) : Vec F S1024x256 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. The output's staging buffer and the accumulator after the body at position `n`: at an even position
    (reduction step 0) step 0's contents of the point's two input blocks; at an odd one the last step's, over what the
    position before left in the accumulator. -/
def outsAt0 (c : Dev nD) : (n : ℕ) → n < cfg0.N → Vec F S1x1024x256 .f32 × Vec F S1024x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => absurd (show 0 % 2 = 1 from (hcond0_1 ⟨0, hn⟩).mp h) (by decide)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => absurd (show 0 % 2 = 1 from (hcond0_1 ⟨0, hn⟩).mp h) (by decide)) (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd (show (n + 1) % 2 = 1 from (hcond0_1 ⟨n + 1, hn⟩).mp h) (by omega)) (iblk0 V c 0 ⟨n + 1, hn⟩) (iblk0 V c 1 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => absurd (show (n + 1) % 2 = 1 from (hcond0_1 ⟨n + 1, hn⟩).mp h) (by omega)) (iblk0 V c 0 ⟨n + 1, hn⟩) (iblk0 V c 1 ⟨n + 1, hn⟩))
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (outsAt0 c n (Nat.lt_of_succ_lt hn)).2)

/-- `outsAt0` at a point of reduction step 0. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t)) := by
  obtain ⟨n, hn⟩ := t
  cases n with
  | zero => exact rfl
  | succ n => exact (dif_pos h0).trans rfl

/-- `outsAt0` at a point of the last reduction step: over what the point before left. -/
theorem outsAt0_C (c : Dev nD) (t : Fin cfg0.N) (h0 : ¬t.val % 2 = 0) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The region invariant before position `n`: before the first point the class's (every scoped buffer of the call's own at
    anything); afterwards the accumulator at what the point before left, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of pipeline 0 on core `c`: the arrays as the region finds them; after the body at a point each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position's parity says which reduction step it is; the
    invariant hands the body the accumulator (at anything at step 0, at what the point before left at the last step) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · rw [Dat.leavesExact_idle (dat0 V c) 2 t (idleAt0_2_A t ((hcond0_0 t).mpr h0) (fun h => absurd ((hcond0_1 t).mp h) (by omega))) (noFlush0_2_A t ((hcond0_0 t).mpr h0) (fun h => absurd ((hcond0_1 t).mp h) (by omega)))]
    rw [outsAt0_A V c t h0]
    unfold sout0_A_0; (try dsimp only)
    have hrun := fun xi2 K => (kernelRun0_A c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (iblk0 V c 0 t) (iblk0 V c 1 t)).2.2 xi2 Set.univ K
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr (by omega))], after0_2]
    rw [outsAt0_C V c t h0]
    unfold out0_C_2 sout0_C_0; (try dsimp only)
    have hz : t.val ≠ 0 := by omega
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr (by omega)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 16 := N_0; omega)

end

end Cert.KernelIdeal.Fr

end
-- ==== Proof.KI.R1Runs.lean ====
import proofs.«130677_j58480274702421_2_alg».proof.Proof.Gen.KernelIdeal.Launch
import proofs.«130677_j58480274702421_2_alg».proof.Proof.Gen.KernelIdeal.Skeleton
import proofs.«130677_j58480274702421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the finishing kernel): what its case runs share

The grid is (batch, output tile, reduction step) = 4 × 4 × 4, so a point's reduction step is its position modulo 4. At step 0
the body first zeroes the accumulator; at every step it adds the block product into it; at the last step (3) it stores the
accumulator plus the pooled block plus the vertex block plus the broadcast row into the output block. -/
section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

/-- "This is reduction step 0". -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last reduction step". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last step the output block is neither stored nor written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5_C : ∀ t : Fin cfg1.N, cond1_1 (grid1.coords t) → cfg1.idle 5 (grid1.coords t) = false := by decide +kernel

abbrev VO1_5 : View sig .tc .vmem S1x512x256 .f32 := (Memref.whole cc1_stg5_0 : Memref sig .tc .vmem S1x512x256 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x256 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S512x256 .f32 := Memref.whole cc1_scratch0
abbrev VS1_0 : View sig .tc .vmem S512x256 .f32 := scM1_0.view

/-- The class invariant with the accumulator split out as a memref owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole, bigSepL]
  rfl

end Cert.KernelIdeal.Fr

end
-- ==== Proof.KI.R1RunA.lean ====
import proofs.«130677_j58480274702421_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- REDUCTION STEP 0: the accumulator at anything; it ends with the zero splat and then zero plus the block product written. -/
noncomputable def kernelRun1_A (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) :
    Σ' (L5 : List (View.Piece (Elt F) S1x512x256 .f32)), { LS0 : List (View.Piece (Elt F) S512x256 .f32) //
      ∀ (xi5 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨[], ?_, fun xi5 E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunB.lean ====
import proofs.«130677_j58480274702421_2_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE REDUCTION STEP: the accumulator at what the step before left; it ends with that plus the block product written. -/
noncomputable def kernelRun1_B (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) :
    Σ' (L5 : List (View.Piece (Elt F) S1x512x256 .f32)), { LS0 : List (View.Piece (Elt F) S512x256 .f32) //
      ∀ (xi5 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨[], ?_, fun xi5 E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunC.lean ====
import proofs.«130677_j58480274702421_2_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST REDUCTION STEP: the accumulator at what the step before left, the output's buffer at anything; the accumulator ends with the
    sum plus the block product written, the output's buffer with that plus the pooled block, the vertex block and the row. -/
noncomputable def kernelRun1_C (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) :
    Σ' (L5 : List (View.Piece (Elt F) S1x512x256 .f32)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__finalize_kernel i arg3 harg3 arg4 harg4 arg5 harg5 arg6 harg6 arg7 harg7 arg8 harg8 arg9 harg9) K } := by
  refine ⟨?_, ?_, fun E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Region1.lean ====
import proofs.«130677_j58480274702421_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each grid point leaves, and the body obligation

Along a (batch, tile) pair the four reduction steps follow each other: step 0 starts from the zero splat, each later step from
what the step before left in the accumulator; the last step also stores the output block. -/

def out1_A_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) : Vec F S1x512x256 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)
theorem scover1_A_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (y : S512x256.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x256.size (by sl_kernel_rfl) y
def sout1_A_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) : Vec F S512x256 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

def out1_B_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S1x512x256 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)
theorem scover1_B_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S512x256.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x256.size (by sl_kernel_rfl) y
def sout1_B_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S512x256 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

theorem cover1_C_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S1x512x256.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x256.size (by sl_kernel_rfl) y
def out1_C_5 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S1x512x256 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem scover1_C_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) (y : S512x256.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x256.size (by sl_kernel_rfl) y
def sout1_C_0 (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i)
    (x0 : Vec F S1x512x1024 .f32) (x1 : Vec F S1x1024x256 .f32) (x2 : Vec F S1x512x256 .f32) (x3 : Vec F S1x512x256 .f32) (x4 : Vec F S1x1x256 .f32) (xs0 : Vec F S512x256 .f32) : Vec F S512x256 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section
variable (V : (c : Dev nD) → (b : Ref sig .tc) → Buf (Elt F) ((c : Thread nD τ).loc b))

/-- THE ACCUMULATION. The output's staging buffer and the accumulator after the body at position `n`, by the position's
    reduction step (`n` modulo 4): step 0's contents; a middle step's or the last step's over what the position before left. -/
def outsAt1 (c : Dev nD) : (n : ℕ) → n < cfg1.N → Vec F S1x512x256 .f32 × Vec F S512x256 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 4 = 3 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => absurd (show 0 % 4 = 3 from (hcond1_1 ⟨0, hn⟩).mp h) (by decide)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => absurd (show (n + 1) % 4 = 3 from (hcond1_1 ⟨n + 1, hn⟩).mp h) (by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => absurd (show (n + 1) % 4 = 3 from (hcond1_1 ⟨n + 1, hn⟩).mp h) (by omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: the class's before the first point; afterwards the accumulator at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the position modulo 4 says which reduction step it is; the
    invariant hands the body the accumulator and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have hn1 : ¬cond1_1 (grid1.coords t) := fun h => absurd ((hcond1_1 t).mp h) (by omega)
    rw [Dat.leavesExact_idle (dat1 V c) 5 t (idleAt1_5 t hn1) (noFlush1_5 t hn1)]
    rw [outsAt1_A V c t h0]
    unfold sout1_A_0; (try dsimp only)
    have hrun := fun xi5 K => (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => absurd ((hcond1_1 t).mp h) (by omega)) (iblk1 V c 0 t) (iblk1 V c 1 t) (iblk1 V c 2 t) (iblk1 V c 3 t) (iblk1 V c 4 t)).2.2 xi5 Set.univ K
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat1 V c).leavesExact 5 t = owns (c : Thread nD τ) (ms1_5 t) fullShare ((dat1 V c).after 5 t) from by
        unfold Dat.leavesExact; rw [liveAt1_5_C t ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · have hn1 : ¬cond1_1 (grid1.coords t) := fun h => h1 ((hcond1_1 t).mp h)
      rw [Dat.leavesExact_idle (dat1 V c) 5 t (idleAt1_5 t hn1) (noFlush1_5 t hn1)]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 64 := N_1; omega)

end

end Cert.KernelIdeal.Fr

end
-- ==== Proof.KI.Assembly.lean ====
import proofs.«130677_j58480274702421_2_alg».proof.Proof.KI.Region0
import proofs.«130677_j58480274702421_2_alg».proof.Proof.KI.Region1
import proofs.«130677_j58480274702421_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the two-region program: the buffer contents at each boundary, the regions as segments, the launch

## The buffer contents at each segment boundary: a fold through the program -/

/-- Core `c`'s buffers at launch (the first region is entered from them: no host operation precedes it). -/
abbrev W0 : Dev nD → Valuation τ sig (Elt F) := fun c b => m ((c : Dev nD), b)
/-- The same read at the TensorCore's references: the first region's entry contents. -/
abbrev Va : (c : Dev nD) → (b : Ref sig .tc) → Buf (Elt F) ((c : Thread nD τ).loc b) := fun c b => W0 m c b
/-- At the first region's exit: its arrays at what the pipeline leaves (the inputs as entered, the output's
    write-backs folded), every other buffer as entered. -/
def Wmid (c : Dev nD) : Valuation τ sig (Elt F) :=
  Pipeline.withArrays spec0 c (W0 m c) fun w => (dat0 (Va m) c).arrAt w cfg0.N
theorem Wmid_arr (c : Dev nD) (w : Fin cfg0.W) :
    Wmid m c (Proc.devRef .tc (Pipeline.arrRef spec0 w)) = (dat0 (Va m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m c (Proc.devRef .tc b) = W0 m c (Proc.devRef .tc b) := by
  unfold Wmid; exact Pipeline.withArrays_of_ne spec0 c _ _ b hb
/-- The same read at the TensorCore's references (the first region's exit contents). -/
abbrev Vmid : (c : Dev nD) → (b : Ref sig .tc) → Buf (Elt F) ((c : Thread nD τ).loc b) := fun c b => Wmid m c b
/-- At the first region's exit each of its arrays holds what the pipeline leaves, and every other buffer what it
    held at entry. -/
theorem hF0 (c : Dev nD) (w : Fin cfg0.W) : (dat0 (Va m) c).arrAt w cfg0.N = Vmid m c (Pipeline.arrRef spec0 w) :=
  (Wmid_arr m c w).symm
theorem hrest0 (c : Dev nD) : ∀ b, b ∉ Finset.univ.image (Pipeline.arrRef spec0) → Vmid m c b = Va m c b :=
  fun b hb => Wmid_of_ne m c b fun w e => hb (Finset.mem_image.mpr ⟨w, Finset.mem_univ _, e⟩)

/-- After the host stretch between the regions (the second region's entry). -/
abbrev Wb : Dev nD → Valuation τ sig (Elt F) := fun c => StableHlo.after hostOps1 (Wmid m c)
/-- The same read at the TensorCore's references: the second region's entry contents. -/
abbrev Vb : (c : Dev nD) → (b : Ref sig .tc) → Buf (Elt F) ((c : Thread nD τ).loc b) := fun c b => Wb m c b
/-- At the second region's exit: its arrays at what the pipeline leaves, every other buffer as entered. -/
def Wend (c : Dev nD) : Valuation τ sig (Elt F) :=
  Pipeline.withArrays spec1 c (Wb m c) fun w => (dat1 (Vb m) c).arrAt w cfg1.N
theorem Wend_arr (c : Dev nD) (w : Fin cfg1.W) :
    Wend m c (Proc.devRef .tc (Pipeline.arrRef spec1 w)) = (dat1 (Vb m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m c (Proc.devRef .tc b) = Wb m c (Proc.devRef .tc b) := by
  unfold Wend; exact Pipeline.withArrays_of_ne spec1 c _ _ b hb
/-- The same read at the TensorCore's references (the second region's exit contents). -/
abbrev Vend : (c : Dev nD) → (b : Ref sig .tc) → Buf (Elt F) ((c : Thread nD τ).loc b) := fun c b => Wend m c b
theorem hF1 (c : Dev nD) (w : Fin cfg1.W) : (dat1 (Vb m) c).arrAt w cfg1.N = Vend m c (Pipeline.arrRef spec1 w) :=
  (Wend_arr m c w).symm
theorem hrest1 (c : Dev nD) : ∀ b, b ∉ Finset.univ.image (Pipeline.arrRef spec1) → Vend m c b = Vb m c b :=
  fun b hb => Wend_of_ne m c b fun w e => hb (Finset.mem_image.mpr ⟨w, Finset.mem_univ _, e⟩)

/-- The host stretch writes one buffer only: every other buffer is after it what it was before it. -/
theorem Wb_of (c : Dev nD) (r : Ref sig .tc) (h : r ∉ (hostOps1_W : List (Ref sig .tc))) :
    Wb m c (Proc.devRef .tc r) = Wmid m c (Proc.devRef .tc r) :=
  StableHlo.after_of_writes_sub hostOps1 _ hostOps1_writes h

/-! ## The arguments end as launched, and what the second region finds

No host operation and no region writes an argument (a region reads it through an input window or bypasses it), so the
fold at an argument's buffer walks back to the launch memory. -/

theorem Wmid_main_arg0 (c : Dev nD) : Wmid m c (Proc.devRef .tc main_arg0) = m ((c : Thread nD τ).loc main_arg0) :=
  (Wmid_arr m c 1).trans (((dat0 (Va m) c).arrAt_in 1 rfl _).trans (A_eq0 (Va m) c 1))
theorem Wmid_main_arg1 (c : Dev nD) : Wmid m c (Proc.devRef .tc main_arg1) = m ((c : Thread nD τ).loc main_arg1) :=
  Wmid_of_ne m c main_arg1 (by decide)
theorem Wmid_main_arg2 (c : Dev nD) : Wmid m c (Proc.devRef .tc main_arg2) = m ((c : Thread nD τ).loc main_arg2) :=
  Wmid_of_ne m c main_arg2 (by decide)
theorem Wmid_main_arg3 (c : Dev nD) : Wmid m c (Proc.devRef .tc main_arg3) = m ((c : Thread nD τ).loc main_arg3) :=
  (Wmid_arr m c 0).trans (((dat0 (Va m) c).arrAt_in 0 rfl _).trans (A_eq0 (Va m) c 0))
theorem Wmid_main_arg4 (c : Dev nD) : Wmid m c (Proc.devRef .tc main_arg4) = m ((c : Thread nD τ).loc main_arg4) :=
  Wmid_of_ne m c main_arg4 (by decide)
theorem Wmid_main_arg5 (c : Dev nD) : Wmid m c (Proc.devRef .tc main_arg5) = m ((c : Thread nD τ).loc main_arg5) :=
  Wmid_of_ne m c main_arg5 (by decide)

/-- The first region's entry contents are the launch contents. -/
theorem Va_eq (c : Dev nD) (b : Ref sig .tc) : Va m c b = m ((c : Thread nD τ).loc b) := rfl

theorem Vb_main_arg0 (c : Dev nD) : Vb m c main_arg0 = m ((c : Thread nD τ).loc main_arg0) :=
  (Wb_of m c main_arg0 (by decide)).trans (Wmid_main_arg0 m c)
theorem Vb_main_arg1 (c : Dev nD) : Vb m c main_arg1 = m ((c : Thread nD τ).loc main_arg1) :=
  (Wb_of m c main_arg1 (by decide)).trans (Wmid_main_arg1 m c)
theorem Vb_main_arg2 (c : Dev nD) : Vb m c main_arg2 = m ((c : Thread nD τ).loc main_arg2) :=
  (Wb_of m c main_arg2 (by decide)).trans (Wmid_main_arg2 m c)
theorem Vb_main_arg3 (c : Dev nD) : Vb m c main_arg3 = m ((c : Thread nD τ).loc main_arg3) :=
  (Wb_of m c main_arg3 (by decide)).trans (Wmid_main_arg3 m c)
theorem Vb_main_arg4 (c : Dev nD) : Vb m c main_arg4 = m ((c : Thread nD τ).loc main_arg4) :=
  (Wb_of m c main_arg4 (by decide)).trans (Wmid_main_arg4 m c)
theorem Vb_main_arg5 (c : Dev nD) : Vb m c main_arg5 = m ((c : Thread nD τ).loc main_arg5) :=
  (Wb_of m c main_arg5 (by decide)).trans (Wmid_main_arg5 m c)

/-- The first region's output as the second region finds it: the host stretch between them does not write it. -/
theorem Vb_main_v0 (c : Dev nD) : Vb m c main_v0 = (dat0 (Va m) c).arrAt 2 cfg0.N :=
  (Wb_of m c main_v0 (by decide)).trans (Wmid_arr m c 2)

/-- The host stretch's one result as the second region finds it: the broadcast of the third argument's launch contents. -/
theorem Vb_main_v1 (c : Dev nD) :
    Vb m c main_v1 = broadcastInDim S4x1x256 ![0, 2] bcast_S4x256_S4x1x256_0_2 (m ((c : Thread nD τ).loc main_arg2)) := by
  have e : Vb m c main_v1 = broadcastInDim S4x1x256 ![0, 2] bcast_S4x256_S4x1x256_0_2 (Wmid m c (Proc.devRef .tc main_arg2)) := by
    show StableHlo.after hostOps1 (Wmid m c) (Proc.devRef .tc main_v1) = _
    dsimp only [hostOps1]; after_results
  rw [e, Wmid_main_arg2]

theorem Wend_main_arg0 (c : Dev nD) : Wend m c (Proc.devRef .tc main_arg0) = m ((c : Thread nD τ).loc main_arg0) :=
  (Wend_arr m c 3).trans (((dat1 (Vb m) c).arrAt_in 3 rfl _).trans ((A_eq1 (Vb m) c 3).trans (Vb_main_arg0 m c)))
theorem Wend_main_arg1 (c : Dev nD) : Wend m c (Proc.devRef .tc main_arg1) = m ((c : Thread nD τ).loc main_arg1) :=
  (Wend_arr m c 1).trans (((dat1 (Vb m) c).arrAt_in 1 rfl _).trans ((A_eq1 (Vb m) c 1).trans (Vb_main_arg1 m c)))
theorem Wend_main_arg2 (c : Dev nD) : Wend m c (Proc.devRef .tc main_arg2) = m ((c : Thread nD τ).loc main_arg2) :=
  (Wend_of_ne m c main_arg2 (by decide)).trans (Vb_main_arg2 m c)
theorem Wend_main_arg3 (c : Dev nD) : Wend m c (Proc.devRef .tc main_arg3) = m ((c : Thread nD τ).loc main_arg3) :=
  (Wend_of_ne m c main_arg3 (by decide)).trans (Vb_main_arg3 m c)
theorem Wend_main_arg4 (c : Dev nD) : Wend m c (Proc.devRef .tc main_arg4) = m ((c : Thread nD τ).loc main_arg4) :=
  (Wend_arr m c 0).trans (((dat1 (Vb m) c).arrAt_in 0 rfl _).trans ((A_eq1 (Vb m) c 0).trans (Vb_main_arg4 m c)))
theorem Wend_main_arg5 (c : Dev nD) : Wend m c (Proc.devRef .tc main_arg5) = m ((c : Thread nD τ).loc main_arg5) :=
  (Wend_of_ne m c main_arg5 (by decide)).trans (Vb_main_arg5 m c)

/-! ## The proof data family and the thread state -/

/-- The prefetched tables' admissible contents: no pipeline has a table. -/
abbrev adm₀ : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm₀ p) c
  | ⟨0, _⟩ => fun c => dat0 (Va m) c
  | ⟨1, _⟩ => fun c => dat1 (Vb m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (Wend m c) ∗ ∃ r, prngReg c r)

/-! ## The regions as segments -/

-- a library lemma stated over the pinned configuration unifies with the printed one only when unification may unfold
-- plain definitions in a metavariable's type
set_option backward.isDefEq.respectTransparency.types false in
/-- REGION 0 over the thread state: its arrays split out of the unscoped buffers at entry and put back at the exit
    contents; the generator register into the region's invariant and out; nothing owed; no semaphore of the kernel's own. -/
def reg0 : Pipeline.RegionSeg (pcfgs (F := F)) adm₀ (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L₀ lv₀ 0 fun _ _ => rfl
  pre c := iprop(StableHlo.held (c : Thread nD τ) (Pipeline.ucRefs τ sig) (W0 m c) ∗ R c)
  post c := iprop(StableHlo.held (c : Thread nD τ) (Pipeline.ucRefs τ sig) (Wmid m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm₀ (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    rw [Pipeline.ownSems0_none]
    refine BIBase.Entails.trans (hout0 (Va m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm₀ (Ix := Unit) (Name := ℕ) (U := UR sig nD τ) (Lvl := ℕ)
      launch0.win launch0.arr_whole c (pdats m) ((pdats m 0 c).share_full fun _ => rfl)
      (Va m c) (Vmid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: its arrays split out of the unscoped buffers at entry and put back at the exit
    contents; the generator register into the region's invariant and out; nothing owed; no semaphore of the kernel's own. -/
def reg1 : Pipeline.RegionSeg (pcfgs (F := F)) adm₀ (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L₀ lv₀ 1 fun _ _ => rfl
  pre c := iprop(StableHlo.held (c : Thread nD τ) (Pipeline.ucRefs τ sig) (Wb m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm₀ (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vb m) c)
    unfold Pipeline.ΦA
    iintro ⟨Hp, -, Hr⟩
    isplitl [Hr]; · iexact Hr
    iexact Hp
  hout c := by
    rw [Pipeline.ownSems0_none]
    refine BIBase.Entails.trans (hout1 (Vb m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm₀ (Ix := Unit) (Name := ℕ) (U := UR sig nD τ) (Lvl := ℕ)
      launch1.win launch1.arr_whole c (pdats m) ((pdats m 1 c).share_full fun _ => rfl)
      (Vb m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the first region, the host stretch between the regions from the first
    region's exit contents, the second region. -/
abbrev segs : List (Pipeline.Seg (pcfgs (F := F)) adm₀ (pdats m) () defs₀ 𝒱₀ L₀ lv₀) :=
  [ .region (reg0 m),
    .host (hseg hostOps1 hostOps1_sub hostOps1_fresh (Wmid m)),
    .region (reg1 m) ]
/-- The program IS the run of the segments. -/
theorem main_run (c : Dev nD) : main (F := F) c = Pipeline.Seg.run (segs m) :=
  main_segs adm₀ (pdats m) () 𝒱₀ L₀ lv₀ (hseg hostOps1 hostOps1_sub hostOps1_fresh (Wmid m)) (reg0 m) (reg1 m) rfl c

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state every unscoped buffer holds the last boundary's contents
    `Wend`: the launch over the segments, the last thread state read against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm₀ (pdats m) () cellOf_inj emb₁ defs₀ 𝒱₀ L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

/-- THE FRAME, at any float values: every weakly fair execution of the program terminates, nothing faulting, and every
    final state has the six argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wend_main_arg0 m c),
      (h c _ (mem_uc main_arg1 (by decide))).trans (Wend_main_arg1 m c),
      (h c _ (mem_uc main_arg2 (by decide))).trans (Wend_main_arg2 m c),
      (h c _ (mem_uc main_arg3 (by decide))).trans (Wend_main_arg3 m c),
      (h c _ (mem_uc main_arg4 (by decide))).trans (Wend_main_arg4 m c),
      (h c _ (mem_uc main_arg5 (by decide))).trans (Wend_main_arg5 m c)⟩)
    (run_all m ρ)

/-- The run with the result named: the program's result buffer ends at what the second region's write-backs leave
    in its output window's array, and the six argument arrays end as launched. -/
theorem run_named (ρ : Dev nD → PrngReg) : θ_run defs (onTc (τ := τ) (main (F := F))) ⟨m, fun _ => 0, ρ⟩ (fun r => ∀ c : Dev nD,
      r.2.mem ((c.tc : Thread nD τ).loc main_v2) = (dat1 (Vb m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v2 (by decide))).trans (Wend_arr m c 5),
      (h c _ (mem_uc main_arg0 (by decide))).trans (Wend_main_arg0 m c),
      (h c _ (mem_uc main_arg1 (by decide))).trans (Wend_main_arg1 m c),
      (h c _ (mem_uc main_arg2 (by decide))).trans (Wend_main_arg2 m c),
      (h c _ (mem_uc main_arg3 (by decide))).trans (Wend_main_arg3 m c),
      (h c _ (mem_uc main_arg4 (by decide))).trans (Wend_main_arg4 m c),
      (h c _ (mem_uc main_arg5 (by decide))).trans (Wend_main_arg5 m c)⟩)
    (run_all m ρ)

end Cert.KernelIdeal.Fr

end
-- ==== Proof.KI.PayIdeal.lean ====
/- The kernel's stored values at the exact (extended-real) instance, read at an index.

   Each of the two kernel bodies stores three values: the zero its accumulator starts from, the accumulator
   plus one block's matrix product, and the accumulator written out (in the second body: plus the three
   addends). Each is read here at one index, over variables for the loaded blocks, as a sum of products
   and additions of the blocks' elements. At the exact instance a rounding to a narrower type is the identity. -/
import proofs.«130677_j58480274702421_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal Cert.KernelIdeal.Gen

/-! ## The zero splats -/

/-- The zero the first body's accumulator starts from. -/
theorem pay0_1 (n : Fin 1024) (d : Fin 256) : k0_pay1 (F := Ideal) (ix2 n d) = 0 := by
  unfold k0_pay1
  rw [shapeCast_self]
  exact Ideal.ofBits_zero_f32

/-- The zero the second body's accumulator starts from. -/
theorem pay1_1 (n : Fin 512) (d : Fin 256) : k1_pay1 (F := Ideal) (ix2 n d) = 0 := by
  unfold k1_pay1
  rw [shapeCast_self]
  exact Ideal.ofBits_zero_f32

/-! ## The two matrix products read at an index

The first body's product contracts the FIRST axis of both operands (the block of the adjacency matrix enters
transposed); the second body's is the plain rows-times-columns product. For each, the operand indices at an
output index and a contraction position, coordinate by coordinate. -/

theorem lhs0_0 (j : S1024x256.Idx) (q : dot_S1024x1024_S1024x256_S1024x256_0_0_1_1_n_n.contr.Idx) :
    (dot_S1024x1024_S1024x256_S1024x256_0_0_1_1_n_n.lhsIdx j q 0).val = (q ⟨0, by decide⟩).val :=
  dot_S1024x1024_S1024x256_S1024x256_0_0_1_1_n_n.lhsIdx_val_of_single rfl j q
theorem lhs0_1 (j : S1024x256.Idx) (q : dot_S1024x1024_S1024x256_S1024x256_0_0_1_1_n_n.contr.Idx) :
    (dot_S1024x1024_S1024x256_S1024x256_0_0_1_1_n_n.lhsIdx j q 1).val = (j 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs0_0 (j : S1024x256.Idx) (q : dot_S1024x1024_S1024x256_S1024x256_0_0_1_1_n_n.contr.Idx) :
    (dot_S1024x1024_S1024x256_S1024x256_0_0_1_1_n_n.rhsIdx j q 0).val = (q ⟨0, by decide⟩).val :=
  dot_S1024x1024_S1024x256_S1024x256_0_0_1_1_n_n.rhsIdx_val_of_single rfl j q
theorem rhs0_1 (j : S1024x256.Idx) (q : dot_S1024x1024_S1024x256_S1024x256_0_0_1_1_n_n.contr.Idx) :
    (dot_S1024x1024_S1024x256_S1024x256_0_0_1_1_n_n.rhsIdx j q 1).val = (j 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

set_option maxHeartbeats 400000 in
/-- The first body's matrix product at (n, d): the sum over the row r of a (r, n) * b (r, d). -/
theorem matmul0_apply (a : FVec Ideal S1024x1024 .bf16) (b : FVec Ideal S1024x256 .bf16) (n : Fin 1024) (d : Fin 256) :
    matmul dot_S1024x1024_S1024x256_S1024x256_0_0_1_1_n_n none a b (constant (F := Ideal) S1024x256 .f32 0x00000000#32) (ix2 n d)
      = ∑ r : Fin 1024, a (ix2 r n) * b (ix2 r d) := by
  simp only [matmul]
  rw [Ideal.matmul_constant_zero_apply, ← Equiv.sum_comp (contrEquiv1 dot_S1024x1024_S1024x256_S1024x256_0_0_1_1_n_n 1024 rfl rfl).symm]
  refine Finset.sum_congr rfl fun k _ => ?_
  have hk := contrEquiv1_symm_val dot_S1024x1024_S1024x256_S1024x256_0_0_1_1_n_n 1024 rfl rfl k
  have el : dot_S1024x1024_S1024x256_S1024x256_0_0_1_1_n_n.lhsIdx (ix2 n d) ((contrEquiv1 dot_S1024x1024_S1024x256_S1024x256_0_0_1_1_n_n 1024 rfl rfl).symm k) = ix2 k n := funext fun x => Fin.ext (by
    match x with
    | ⟨0, _⟩ => exact (lhs0_0 _ _).trans hk
    | ⟨1, _⟩ => exact lhs0_1 _ _)
  have er : dot_S1024x1024_S1024x256_S1024x256_0_0_1_1_n_n.rhsIdx (ix2 n d) ((contrEquiv1 dot_S1024x1024_S1024x256_S1024x256_0_0_1_1_n_n 1024 rfl rfl).symm k) = ix2 k d := funext fun x => Fin.ext (by
    match x with
    | ⟨0, _⟩ => exact (rhs0_0 _ _).trans hk
    | ⟨1, _⟩ => exact rhs0_1 _ _)
  rw [el, er]

theorem lhs1_0 (j : S512x256.Idx) (q : dot_S512x1024_S1024x256_S512x256_1_0_0_1_n_n.contr.Idx) :
    (dot_S512x1024_S1024x256_S512x256_1_0_0_1_n_n.lhsIdx j q 0).val = (j 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs1_1 (j : S512x256.Idx) (q : dot_S512x1024_S1024x256_S512x256_1_0_0_1_n_n.contr.Idx) :
    (dot_S512x1024_S1024x256_S512x256_1_0_0_1_n_n.lhsIdx j q 1).val = (q ⟨0, by decide⟩).val :=
  dot_S512x1024_S1024x256_S512x256_1_0_0_1_n_n.lhsIdx_val_of_single rfl j q
theorem rhs1_0 (j : S512x256.Idx) (q : dot_S512x1024_S1024x256_S512x256_1_0_0_1_n_n.contr.Idx) :
    (dot_S512x1024_S1024x256_S512x256_1_0_0_1_n_n.rhsIdx j q 0).val = (q ⟨0, by decide⟩).val :=
  dot_S512x1024_S1024x256_S512x256_1_0_0_1_n_n.rhsIdx_val_of_single rfl j q
theorem rhs1_1 (j : S512x256.Idx) (q : dot_S512x1024_S1024x256_S512x256_1_0_0_1_n_n.contr.Idx) :
    (dot_S512x1024_S1024x256_S512x256_1_0_0_1_n_n.rhsIdx j q 1).val = (j 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

set_option maxHeartbeats 400000 in
/-- The second body's matrix product at (n, d): the sum over r of a (n, r) * b (r, d). -/
theorem matmul1_apply (a : FVec Ideal S512x1024 .bf16) (b : FVec Ideal S1024x256 .bf16) (n : Fin 512) (d : Fin 256) :
    matmul dot_S512x1024_S1024x256_S512x256_1_0_0_1_n_n none a b (constant (F := Ideal) S512x256 .f32 0x00000000#32) (ix2 n d)
      = ∑ r : Fin 1024, a (ix2 n r) * b (ix2 r d) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 n d) ((contrEquiv1 dot_S512x1024_S1024x256_S512x256_1_0_0_1_n_n 1024 rfl rfl).symm k) = ix2 n k := funext fun x => Fin.ext (by
    match x with
    | ⟨0, _⟩ => exact lhs1_0 _ _
    | ⟨1, _⟩ => exact (lhs1_1 _ _).trans hk)
  have er : dot_S512x1024_S1024x256_S512x256_1_0_0_1_n_n.rhsIdx (ix2 n d) ((contrEquiv1 dot_S512x1024_S1024x256_S512x256_1_0_0_1_n_n 1024 rfl rfl).symm k) = ix2 k d := funext fun x => Fin.ext (by
    match x with
    | ⟨0, _⟩ => exact (rhs1_0 _ _).trans hk
    | ⟨1, _⟩ => exact rhs1_1 _ _)
  rw [el, er]

set_option maxHeartbeats 400000 in
/-- The first body's accumulation step: the accumulator plus one block's product. -/
theorem pay0_2 (v3 : Vec Ideal S1x1024x1024 .f32) (v6 : Vec Ideal S1x1024x256 .f32) (v9 : Vec Ideal S1024x256 .f32)
    (n : Fin 1024) (d : Fin 256) :
    k0_pay2 v3 v6 v9 (ix2 n d) = v9 (ix2 n d) + ∑ r : Fin 1024, v3 (ix3 0 r n) * v6 (ix3 0 r d) := by
  unfold k0_pay2
  rw [shapeCast_self, addf_apply, matmul0_apply]
  refine congrArg (v9 (ix2 n d) + ·) (Finset.sum_congr rfl fun r _ => ?_)
  rw [truncf_apply, truncf_apply, shapeCast_1ab_ab_apply, shapeCast_1ab_ab_apply]

set_option maxHeartbeats 400000 in
/-- The second body's accumulation step: the accumulator plus one block's product. -/
theorem pay1_2 (v3 : Vec Ideal S1x512x1024 .f32) (v6 : Vec Ideal S1x1024x256 .f32) (v9 : Vec Ideal S512x256 .f32)
    (n : Fin 512) (d : Fin 256) :
    k1_pay2 v3 v6 v9 (ix2 n d) = v9 (ix2 n d) + ∑ r : Fin 1024, v3 (ix3 0 n r) * v6 (ix3 0 r d) := by
  unfold k1_pay2
  rw [shapeCast_self, addf_apply, matmul1_apply]
  refine congrArg (v9 (ix2 n d) + ·) (Finset.sum_congr rfl fun r _ => ?_)
  rw [truncf_apply, truncf_apply, shapeCast_1ab_ab_apply, shapeCast_1ab_ab_apply]

/-! ## The values written out -/

set_option maxHeartbeats 400000 in
/-- The first body writes its accumulator out under a leading unit axis. -/
theorem pay0_3 (v18 : Vec Ideal S1024x256 .f32) (n : Fin 1024) (d : Fin 256) :
    k0_pay3 v18 (ix3 0 n d) = v18 (ix2 n d) := by
  unfold k0_pay3
  exact shapeCast_ab_1ab_apply v18 _ 0 n d

set_option maxHeartbeats 400000 in
/-- The second body writes out its accumulator plus the two blocks and the broadcast row, added in this order. -/
theorem pay1_3 (v18 : Vec Ideal S512x256 .f32) (v19 v22 : Vec Ideal S1x512x256 .f32) (v25 : Vec Ideal S1x1x256 .f32)
    (n : Fin 512) (d : Fin 256) :
    k1_pay3 v18 v19 v22 v25 (ix3 0 n d)
      = ((v18 (ix2 n d) + v19 (ix3 0 n d)) + v22 (ix3 0 n d)) + v25 (ix3 0 0 d) := by
  unfold k1_pay3
  rw [shapeCast_ab_1ab_apply, addf_apply, addf_apply, addf_apply, broadcastTo_1b_ab_apply,
    shapeCast_1ab_ab_apply, shapeCast_1ab_ab_apply, shapeCast_1ab_ab_apply]

end Cert.KernelIdeal.PayIdeal

end
-- ==== Proof.Spec.lean ====
/- The specification: the result as ONE function of the argument arrays, index by index, and the regrouping of a
   long sum into consecutive blocks of 1024 terms.

   With v : [4,2048,256], e : [4,4096,256], u : [4,256], adj : [4,2048,2048], conEd : [4,2048,4096] the result
   at (b, n, d) is

     ((Σ_k conEd[b,n,k]·e[b,k,d]  +  Σ_m adj[b,m,n]·v[b,m,d])  +  v[b,n,d])  +  u[b,d]

   over the extended reals, every operation exact. The additions are written in the order in which the blocked
   computation performs them; only commutativity and associativity of + relate it to any other order. -/
import Idealize.ShloMosaic.PureOps.Ideal
import Idealize.ShloMosaic.Lib.ValueIdx

noncomputable section

namespace Cert.Pool

open Idealize.ShloMosaic Idealize.ShloMosaic.ValueIdx
open scoped BigOperators

/-- Pooling from the vertices: column n of the adjacency matrix against column d of v. -/
def pooledV (adj : (⟨3, ![4, 2048, 2048]⟩ : Shape).Idx → EReal) (v : (⟨3, ![4, 2048, 256]⟩ : Shape).Idx → EReal)
    (b : Fin 4) (n : Fin 2048) (d : Fin 256) : EReal :=
  ∑ m : Fin 2048, adj (ix3 b m n) * v (ix3 b m d)

/-- Pooling from the edges: row n of the incidence matrix against column d of e. -/
def pooledE (conEd : (⟨3, ![4, 2048, 4096]⟩ : Shape).Idx → EReal) (e : (⟨3, ![4, 4096, 256]⟩ : Shape).Idx → EReal)
    (b : Fin 4) (n : Fin 2048) (d : Fin 256) : EReal :=
  ∑ k : Fin 4096, conEd (ix3 b n k) * e (ix3 b k d)

/-- The result at the coordinates (b, n, d). -/
def outAt (v : (⟨3, ![4, 2048, 256]⟩ : Shape).Idx → EReal) (e : (⟨3, ![4, 4096, 256]⟩ : Shape).Idx → EReal)
    (u : (⟨2, ![4, 256]⟩ : Shape).Idx → EReal) (adj : (⟨3, ![4, 2048, 2048]⟩ : Shape).Idx → EReal)
    (conEd : (⟨3, ![4, 2048, 4096]⟩ : Shape).Idx → EReal) (b : Fin 4) (n : Fin 2048) (d : Fin 256) : EReal :=
  ((pooledE conEd e b n d + pooledV adj v b n d) + v (ix3 b n d)) + u (ix2 b d)

/-- The result, as an array. -/
def out (v : (⟨3, ![4, 2048, 256]⟩ : Shape).Idx → EReal) (e : (⟨3, ![4, 4096, 256]⟩ : Shape).Idx → EReal)
    (u : (⟨2, ![4, 256]⟩ : Shape).Idx → EReal) (adj : (⟨3, ![4, 2048, 2048]⟩ : Shape).Idx → EReal)
    (conEd : (⟨3, ![4, 2048, 4096]⟩ : Shape).Idx → EReal) : (⟨3, ![4, 2048, 256]⟩ : Shape).Idx → EReal :=
  fun i => outAt v e u adj conEd (i 0) (i 1) (i 2)

theorem out_apply (v : (⟨3, ![4, 2048, 256]⟩ : Shape).Idx → EReal) (e : (⟨3, ![4, 4096, 256]⟩ : Shape).Idx → EReal)
    (u : (⟨2, ![4, 256]⟩ : Shape).Idx → EReal) (adj : (⟨3, ![4, 2048, 2048]⟩ : Shape).Idx → EReal)
    (conEd : (⟨3, ![4, 2048, 4096]⟩ : Shape).Idx → EReal) (b : Fin 4) (n : Fin 2048) (d : Fin 256) :
    out v e u adj conEd (ix3 b n d)
      = ((pooledE conEd e b n d + pooledV adj v b n d) + v (ix3 b n d)) + u (ix2 b d) := rfl

/-! ## A sum regrouped into blocks of 1024 consecutive terms -/

/-- The sum of the first k blocks of 1024 consecutive terms of f: what an accumulator that starts at zero holds
    after k steps, each adding one block's sum. -/
def partialSum (f : ℕ → EReal) (k : ℕ) : EReal := ∑ j : Fin k, ∑ r : Fin 1024, f (j.val * 1024 + r.val)

theorem partialSum_zero (f : ℕ → EReal) : partialSum f 0 = 0 := by
  unfold partialSum
  exact Finset.sum_empty

theorem partialSum_succ (f : ℕ → EReal) (k : ℕ) :
    partialSum f (k + 1) = partialSum f k + ∑ r : Fin 1024, f (k * 1024 + r.val) := by
  unfold partialSum
  rw [Fin.sum_univ_castSucc]
  rfl

/-- Only the first k * 1024 terms matter. -/
theorem partialSum_congr (f g : ℕ → EReal) (k : ℕ) (h : ∀ x, x < k * 1024 → f x = g x) :
    partialSum f k = partialSum g k := by
  unfold partialSum
  refine Finset.sum_congr rfl fun j _ => Finset.sum_congr rfl fun r _ => h _ ?_
  have hj := j.isLt
  have hr := r.isLt
  calc j.val * 1024 + r.val < j.val * 1024 + 1024 := by omega
    _ = (j.val + 1) * 1024 := by ring
    _ ≤ k * 1024 := Nat.mul_le_mul_right _ hj

/-- K blocks of 1024 terms are all the K * 1024 terms. -/
theorem partialSum_all (K : ℕ) (g : Fin (K * 1024) → EReal) :
    partialSum (fun x => if h : x < K * 1024 then g ⟨x, h⟩ else 0) K = ∑ m : Fin (K * 1024), g m := by
  unfold partialSum
  rw [← Equiv.sum_comp finProdFinEquiv g, Fintype.sum_prod_type]
  refine Finset.sum_congr rfl fun j _ => Finset.sum_congr rfl fun r _ => ?_
  have hj := j.isLt
  have hr := r.isLt
  have hlt : j.val * 1024 + r.val < K * 1024 :=
    calc j.val * 1024 + r.val < j.val * 1024 + 1024 := by omega
      _ = (j.val + 1) * 1024 := by ring
      _ ≤ K * 1024 := Nat.mul_le_mul_right _ hj
  beta_reduce
  rw [dif_pos hlt]
  refine congrArg g (Fin.ext ?_)
  show j.val * 1024 + r.val = r.val + 1024 * j.val
  ring

/-- Two blocks of 1024 are the 2048 terms. -/
theorem partialSum_two (g : Fin 2048 → EReal) :
    partialSum (fun x => if h : x < 2048 then g ⟨x, h⟩ else 0) 2 = ∑ m : Fin 2048, g m :=
  partialSum_all 2 g

/-- Four blocks of 1024 are the 4096 terms. -/
theorem partialSum_four (g : Fin 4096 → EReal) :
    partialSum (fun x => if h : x < 4096 then g ⟨x, h⟩ else 0) 4 = ∑ m : Fin 4096, g m :=
  partialSum_all 4 g

end Cert.Pool

end
-- ==== Proof.KI.Value0.lean ====
/- Region 0 (the vertex pooling), read for its values at the exact (extended-real) instance.

   The grid is (batch b, output tile j, reduction step k) = 4 × 2 × 2. Along a pair (b, j) the accumulator starts at zero,
   each step adds the product of the step's two blocks, and the last step writes the accumulator out as block (b, j) of the
   output array. Here: (a) what each step's stores leave, as the stored values' terms; (b) the two input blocks read at an
   index of their arrays; (c) the two steps' sums regrouped into the one sum over the 2048 rows; (d) the output array after the
   region, index by index:

       out[b, n, d] = Σ_m adj[b, m, n] · v[b, m, d]. -/
import proofs.«130677_j58480274702421_2_alg».proof.Proof.KI.Region0
import proofs.«130677_j58480274702421_2_alg».proof.Proof.KI.PayIdeal
import proofs.«130677_j58480274702421_2_alg».proof.Proof.Spec
import Idealize.ShloMosaic.Lib.Pipeline.Value

noncomputable section

namespace Cert.KernelIdeal.Val0

open Idealize.ShloMosaic Idealize.ShloMosaic.TcCoe Idealize.SL.Sem
open Idealize.ShloMosaic.Pipeline (Dat)
open Cert.KernelIdeal Cert.KernelIdeal.Gen Cert.KernelIdeal.Fr Idealize.ShloMosaic.ValueIdx
open Idealize.ShloMosaic.Tactic

section AnyInstance
variable {F : FTy → Type} [FloatOps F]

/-! ## (a) What the body's stores leave, as the payloads -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- Reduction step 0 leaves in the accumulator the zero splat plus the block product. -/
theorem sout_A (c : Dev nD) (i : grid0.Coords) (a3 : Memref sig .tc .vmem S1x1024x1024 .f32) (h3 : a3.IsWhole)
    (a4 : Memref sig .tc .vmem S1x1024x256 .f32) (h4 : a4.IsWhole) (a5 : Memref sig .tc .vmem S1x1024x256 .f32) (h5 : a5.IsWhole)
    (a6 : Memref sig .tc .vmem S1024x256 .f32) (h6 : a6.IsWhole) (hc0 : cond0_0 i) (hc1 : ¬cond0_1 i)
    (x0 : Vec F S1x1024x1024 .f32) (x1 : Vec F S1x1024x256 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x256) hz2, View.readCov_unit_zero (S := S1024x256) _ hz2]
  simp only [View.readAt_eq_ld, h3.read_unread, h4.read_unread, View.ld_unit_zero (S := S1x1024x1024) hz3,
    View.ld_unit_zero (S := S1x1024x256) hz3]

set_option maxHeartbeats 1000000 in
/-- The last reduction step leaves in the accumulator what it held plus the block product. -/
theorem sout_C (c : Dev nD) (i : grid0.Coords) (a3 : Memref sig .tc .vmem S1x1024x1024 .f32) (h3 : a3.IsWhole)
    (a4 : Memref sig .tc .vmem S1x1024x256 .f32) (h4 : a4.IsWhole) (a5 : Memref sig .tc .vmem S1x1024x256 .f32) (h5 : a5.IsWhole)
    (a6 : Memref sig .tc .vmem S1024x256 .f32) (h6 : a6.IsWhole) (hc0 : ¬cond0_0 i) (hc1 : cond0_1 i)
    (x0 : Vec F S1x1024x1024 .f32) (x1 : Vec F S1x1024x256 .f32) (xs0 : Vec F S1024x256 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero (S := S1024x256) hz2]
  simp only [View.readAt_eq_ld, h3.read_unread, h4.read_unread, h6.read_unread, View.ld_unit_zero (S := S1x1024x1024) hz3,
    View.ld_unit_zero (S := S1x1024x256) hz3, View.ld_unit_zero (S := S1024x256) hz2]

set_option maxHeartbeats 1000000 in
/-- … and in the output's buffer that new accumulator, under a leading unit axis. -/
theorem out_C (c : Dev nD) (i : grid0.Coords) (a3 : Memref sig .tc .vmem S1x1024x1024 .f32) (h3 : a3.IsWhole)
    (a4 : Memref sig .tc .vmem S1x1024x256 .f32) (h4 : a4.IsWhole) (a5 : Memref sig .tc .vmem S1x1024x256 .f32) (h5 : a5.IsWhole)
    (a6 : Memref sig .tc .vmem S1024x256 .f32) (h6 : a6.IsWhole) (hc0 : ¬cond0_0 i) (hc1 : cond0_1 i)
    (x0 : Vec F S1x1024x1024 .f32) (x1 : Vec F S1x1024x256 .f32) (xs0 : Vec F S1024x256 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero (S := S1x1024x256) hz3, View.readCov_unit_zero (S := S1024x256) _ hz2]
  simp only [View.readAt_eq_ld, h3.read_unread, h4.read_unread, h6.read_unread, View.ld_unit_zero (S := S1x1024x1024) hz3,
    View.ld_unit_zero (S := S1x1024x256) hz3, View.ld_unit_zero (S := S1024x256) hz2]

/-! ## (b) The input blocks read at an index

A grid point is (batch b, output tile j, reduction step k), t = 4 b + 2 j + k. The adjacency block at t is block
(b, k, j) of the [4, 2048, 2048] array, the block of v is block (b, k, 0) of the [4, 2048, 256] array, and the output's block is
block (b, j, 0): a block's coordinate in its array is the block index times the block's extent plus the coordinate inside it. -/

/-- The three windows' block indices, decided over the grid. -/
theorem idx_facts : ∀ t : Fin cfg0.N,
    win0_0.index t (0 : Fin 3) = t.val / 4 ∧ win0_0.index t (1 : Fin 3) = t.val % 2 ∧ win0_0.index t (2 : Fin 3) = t.val / 2 % 2
    ∧ win0_1.index t (0 : Fin 3) = t.val / 4 ∧ win0_1.index t (1 : Fin 3) = t.val % 2 ∧ win0_1.index t (2 : Fin 3) = 0
    ∧ win0_2.index t (0 : Fin 3) = t.val / 4 ∧ win0_2.index t (1 : Fin 3) = t.val / 2 % 2 ∧ win0_2.index t (2 : Fin 3) = 0 :=
  (by decide +kernel : ∀ t : Fin grid0.N, _)

section
variable (V : (c : Dev nD) → (b : Ref sig .tc) → Buf (Elt F) ((c : Thread nD τ).loc b))

set_option maxHeartbeats 1000000 in
/-- The adjacency block at point t = 4 b + 2 j + k, at (0, r, n): the array at (b, 1024 k + r, 1024 j + n). -/
theorem iblk0_0_apply (c : Dev nD) (t : Fin cfg0.N) (b : Fin 4) (j k : ℕ) (hj : j < 2) (hk : k < 2) (ht : t.val = b.val * 4 + j * 2 + k)
    (r n : Fin 1024) :
    (iblk0 V c 0 t : Vec F S1x1024x1024 .f32) (ix3 0 r n)
      = V c main_arg3 (ix3 b ⟨k * 1024 + r.val, by omega⟩ ⟨j * 1024 + n.val, by omega⟩) := by
  obtain ⟨e0, e1, e2, -⟩ := idx_facts t
  unfold iblk0
  rw [View.read_apply]
  show V c main_arg3 (((cfg0.win 0).blk t).view.emb (ix3 0 r n)) = _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = k * 1024 + r.val; omega
  | ⟨2, _⟩ => show win0_0.index t (2 : Fin 3) * 1024 + 1 * n.val = j * 1024 + n.val; omega

set_option maxHeartbeats 1000000 in
/-- The block of v at point t = 4 b + 2 j + k, at (0, r, d): the array at (b, 1024 k + r, d). -/
theorem iblk0_1_apply (c : Dev nD) (t : Fin cfg0.N) (b : Fin 4) (j k : ℕ) (hj : j < 2) (hk : k < 2) (ht : t.val = b.val * 4 + j * 2 + k)
    (r : Fin 1024) (d : Fin 256) :
    (iblk0 V c 1 t : Vec F S1x1024x256 .f32) (ix3 0 r d)
      = V c main_arg0 (ix3 b ⟨k * 1024 + r.val, by omega⟩ d) := by
  obtain ⟨-, -, -, e0, e1, e2, -⟩ := idx_facts t
  unfold iblk0
  rw [View.read_apply]
  show V c main_arg0 (((cfg0.win 1).blk t).view.emb (ix3 0 r d)) = _
  congr 1
  funext a
  apply Fin.ext
  match a with
  | ⟨0, _⟩ => show win0_1.index t (0 : Fin 3) * 1 + 1 * 0 = b.val; omega
  | ⟨1, _⟩ => show win0_1.index t (1 : Fin 3) * 1024 + 1 * r.val = k * 1024 + r.val; omega
  | ⟨2, _⟩ => show win0_1.index t (2 : Fin 3) * 256 + 1 * d.val = d.val; omega
end

end AnyInstance

open Cert.Pool

/-! ## (c) The accumulation over a (batch, tile) pair's two reduction steps, over the extended reals -/

/-- Step 0's accumulator at (n, d): zero plus the block product there. -/
theorem stepA_val (x0 : Vec Ideal S1x1024x1024 .f32) (x1 : Vec Ideal S1x1024x256 .f32) (n : Fin 1024) (d : Fin 256) :
    k0_pay2 x0 x1 (k0_pay1 (F := Ideal)) (ix2 n d) = 0 + ∑ r : Fin 1024, x0 (ix3 0 r n) * x1 (ix3 0 r d) := by
  rw [PayIdeal.pay0_2, PayIdeal.pay0_1]

/-- The last step's output at (0, n, d): the accumulator plus the block product there. -/
theorem stepC_val (x0 : Vec Ideal S1x1024x1024 .f32) (x1 : Vec Ideal S1x1024x256 .f32) (xs0 : Vec Ideal S1024x256 .f32)
    (n : Fin 1024) (d : Fin 256) :
    k0_pay3 (k0_pay2 x0 x1 xs0) (ix3 0 n d) = xs0 (ix2 n d) + ∑ r : Fin 1024, x0 (ix3 0 r n) * x1 (ix3 0 r d) := by
  rw [PayIdeal.pay0_3, PayIdeal.pay0_2]

/-- Zero plus the first block of 1024 terms plus the second block are the 2048 terms. -/
theorem two_blocks (g : Fin 2048 → EReal) :
    (0 + ∑ r : Fin 1024, g ⟨0 * 1024 + r.val, by omega⟩) + ∑ r : Fin 1024, g ⟨1 * 1024 + r.val, by omega⟩ = ∑ m : Fin 2048, g m := by
  rw [← partialSum_two g, show (2 : ℕ) = 0 + 1 + 1 from rfl, partialSum_succ, partialSum_succ, partialSum_zero]
  refine congrArg₂ (· + ·) (congrArg (0 + ·) (Finset.sum_congr rfl fun r _ => ?_)) (Finset.sum_congr rfl fun r _ => ?_)
  · have hr := r.isLt
    beta_reduce
    rw [dif_pos (show 0 * 1024 + r.val < 2048 by omega)]
  · have hr := r.isLt
    beta_reduce
    rw [dif_pos (show (0 + 1) * 1024 + r.val < 2048 by omega)]

section
variable (V : (c : Dev nD) → (b : Ref sig .tc) → Buf (Elt Ideal) ((c : Thread nD τ).loc b))

/-- The adjacency array as the region finds it, at an index: an extended real. -/
abbrev adjAt (c : Dev nD) (i : S4x2048x2048.Idx) : EReal := V c main_arg3 i
/-- The array v as the region finds it, at an index. -/
abbrev vAt (c : Dev nD) (i : S4x2048x256.Idx) : EReal := V c main_arg0 i

set_option maxHeartbeats 1000000 in
/-- After reduction step 0 of the pair (b, j) the accumulator holds zero plus the first block's sum. -/
theorem acc_even (c : Dev nD) (t : Fin cfg0.N) (b : Fin 4) (j : ℕ) (hj : j < 2) (ht : t.val = b.val * 4 + j * 2 + 0)
    (n : Fin 1024) (d : Fin 256) :
    (outsAt0 V c t.val t.isLt).2 (ix2 n d)
      = 0 + ∑ r : Fin 1024, adjAt V c (ix3 b ⟨0 * 1024 + r.val, by omega⟩ ⟨j * 1024 + n.val, by omega⟩)
              * vAt V c (ix3 b ⟨0 * 1024 + r.val, by omega⟩ d) := by
  have h0 : t.val % 2 = 0 := by omega
  rw [outsAt0_A V c t h0]
  dsimp only
  rw [sout_A, stepA_val]
  refine congrArg (0 + ·) (Finset.sum_congr rfl fun r _ => ?_)
  rw [iblk0_0_apply V c t b j 0 hj (by omega) ht r n, iblk0_1_apply V c t b j 0 hj (by omega) ht r d]

set_option maxHeartbeats 1000000 in
/-- After the last reduction step of the pair (b, j) the output's buffer holds the pooled sum of rows 1024 j + n. -/
theorem out_odd (c : Dev nD) (t : Fin cfg0.N) (b : Fin 4) (j : ℕ) (hj : j < 2) (ht : t.val = b.val * 4 + j * 2 + 1)
    (n : Fin 1024) (d : Fin 256) :
    (outsAt0 V c t.val t.isLt).1 (ix3 0 n d)
      = pooledV (V c main_arg3) (V c main_arg0) b ⟨j * 1024 + n.val, by omega⟩ d := by
  have h1 : ¬t.val % 2 = 0 := by omega
  rw [outsAt0_C V c t h1]
  dsimp only
  rw [out_C, stepC_val]
  rw [acc_even V c ⟨t.val - 1, Nat.lt_of_le_of_lt (Nat.sub_le _ _) t.isLt⟩ b j hj (by dsimp only; omega) n d]
  simp only [iblk0_0_apply V c t b j 1 hj (by omega) ht, iblk0_1_apply V c t b j 1 hj (by omega) ht]
  unfold pooledV
  exact two_blocks (fun m => adjAt V c (ix3 b m ⟨j * 1024 + n.val, by omega⟩) * vAt V c (ix3 b m d))

/-! ## (d) From the blocks to the array -/

/-- The pooled sums as one array: what the region's output array ends holding. -/
abbrev pooledArr (c : Dev nD) : S4x2048x256.Idx → EReal :=
  fun i => pooledV (V c main_arg3) (V c main_arg0) (i 0) (i 1) (i 2)

set_option maxHeartbeats 1000000 in
/-- What a point of the last reduction step leaves in the output's buffer, at a block index y: the pooled array where the
    block sits in the array. -/
theorem flushed_apply (c : Dev nD) (t : Fin cfg0.N) (hodd : t.val % 2 = 1) (y : S1x1024x256.Idx) :
    (outsAt0 V c t.val t.isLt).1 y = pooledArr V c (((cfg0.win 2).blk t).view.emb y) := by
  have hN : cfg0.N = 16 := N_0
  have ht := t.isLt
  obtain ⟨-, -, -, -, -, -, e0, e1, e2⟩ := idx_facts t
  obtain ⟨u, n, d, rfl⟩ : ∃ (u : Fin 1) (n : Fin 1024) (d : Fin 256), y = ix3 u n d := ⟨y 0, y 1, y 2, eq_ix3 y⟩
  obtain rfl : u = 0 := Subsingleton.elim _ _
  have hb : t.val / 4 < 4 := by omega
  have hn := n.isLt
  have hd := d.isLt
  rw [out_odd V c t ⟨t.val / 4, hb⟩ (t.val / 2 % 2) (by omega) (by dsimp only; omega) n d]
  have q0 : (⟨t.val / 4, hb⟩ : Fin 4) = ((cfg0.win 2).blk t).view.emb (ix3 0 n d) 0 := Fin.ext (by
    show t.val / 4 = win0_2.index t (0 : Fin 3) * 1 + 1 * 0; omega)
  have q1 : (⟨t.val / 2 % 2 * 1024 + n.val, by omega⟩ : Fin 2048) = ((cfg0.win 2).blk t).view.emb (ix3 0 n d) 1 := Fin.ext (by
    show t.val / 2 % 2 * 1024 + n.val = win0_2.index t (1 : Fin 3) * 1024 + 1 * n.val; omega)
  have q2 : d = ((cfg0.win 2).blk t).view.emb (ix3 0 n d) 2 := Fin.ext (by
    show d.val = win0_2.index t (2 : Fin 3) * 256 + 1 * d.val; omega)
  show pooledV _ _ _ _ _ = pooledV _ _ _ _ _
  rw [← q0, ← q1, ← q2]

set_option maxHeartbeats 1000000 in
/-- What a point writes back is its block of the pooled array. -/
theorem flushed_eq (c : Dev nD) (t : Fin cfg0.N) (hf : (cfg0.win 2).flush t = true) :
    (dat0 V c).flushed 2 t = ((cfg0.win 2).blk t).view.read (Elt Ideal) (pooledArr V c) := by
  show (cfg0.win 2).cut (grid0.coords t) ((dat0 V c).after 2 t) = _
  rw [after0_2]
  funext y
  rw [View.read_apply]
  exact flushed_apply V c t ((flush0_2 t).mp hf) y

/-- An index of the array is in point t's block iff each coordinate is in the block's range on its axis. -/
theorem mem_blk (t : Fin cfg0.N) (i : S4x2048x256.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v0).slice (win0_2.rect t)).set ↔ _
  rw [View.set_slice_whole, Rect.mem_set_unit]
  exact Iff.rfl

set_option maxHeartbeats 1000000 in
/-- Row n of batch b is written back by the last reduction step of the pair (b, n / 1024). -/
theorem cover (i : S4x2048x256.Idx) :
    ∃ t : Fin cfg0.N, (cfg0.win 2).flush t = true ∧ i ∈ ((cfg0.win 2).blk t).view.set := by
  have hN : cfg0.N = 16 := N_0
  have h0 : (i 0).val < 4 := (i 0).isLt
  have h1 : (i 1).val < 2048 := (i 1).isLt
  have h2 : (i 2).val < 256 := (i 2).isLt
  have hlt : (i 0).val * 4 + (i 1).val / 1024 * 2 + 1 < cfg0.N := by omega
  refine ⟨⟨(i 0).val * 4 + (i 1).val / 1024 * 2 + 1, hlt⟩, (flush0_2 _).mpr (by dsimp only; omega), ?_⟩
  rw [mem_blk]
  obtain ⟨-, -, -, -, -, -, e0, e1, e2⟩ := idx_facts ⟨(i 0).val * 4 + (i 1).val / 1024 * 2 + 1, hlt⟩
  dsimp only at e0 e1 e2
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 256 ≤ (i 2).val ∧ (i 2).val < win0_2.index _ (2 : Fin 3) * 256 + 256
    omega

/-- The region's output array ends holding the pooled sums. -/
theorem pooled_array (c : Dev nD) : (dat0 V c).arrAt 2 cfg0.N = pooledArr V c :=
  (dat0 V c).arrAt_eq_of_cover 2 (pooledArr V c) (flushed_eq V c) cover

/-- … index by index. -/
theorem pooled_apply (c : Dev nD) (b : Fin 4) (n : Fin 2048) (d : Fin 256) :
    (dat0 V c).arrAt 2 cfg0.N (ix3 b n d) = pooledV (V c main_arg3) (V c main_arg0) b n d :=
  congrFun (pooled_array V c) (ix3 b n d)
end

end Cert.KernelIdeal.Val0

end
-- ==== Proof.KI.Value1.lean ====
import proofs.«130677_j58480274702421_2_alg».proof.Proof.KI.Region1
import proofs.«130677_j58480274702421_2_alg».proof.Proof.KI.PayIdeal
import proofs.«130677_j58480274702421_2_alg».proof.Proof.Spec
import Idealize.ShloMosaic.Lib.Pipeline.Value

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! # Region 1 read as values

## What the body's stores leave, as the payloads -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- Reduction step 0 leaves in the accumulator the zero splat plus the block product. -/
theorem sout_A (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : cond1_0 i) (hc1 : ¬cond1_1 i) (x0 : Vec F S1x512x1024 .f32) (x1 : Vec F S1x1024x256 .f32) (x2 : Vec F S1x512x256 .f32) (x3 : Vec F S1x512x256 .f32) (x4 : Vec F S1x1x256 .f32) :
    sout1_A_0 c i arg3 harg3 arg4 harg4 arg5 harg5 arg6 harg6 arg7 harg7 arg8 harg8 arg9 harg9 hc0 hc1 x0 x1 x2 x3 x4 = k1_pay2 x0 x1 (k1_pay1 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S512x256) hz2, View.readCov_unit_zero (S := S512x256) _ hz2]
  simp only [View.readAt_eq_ld, harg3.read_unread, harg4.read_unread, harg5.read_unread, harg6.read_unread, harg7.read_unread, harg9.read_unread, View.ld_unit_zero (S := S1x512x1024) hz3, View.ld_unit_zero (S := S1x1024x256) hz3, View.ld_unit_zero (S := S1x512x256) hz3, View.ld_unit_zero (S := S1x1x256) hz3, View.ld_unit_zero (S := S512x256) hz2]

set_option maxHeartbeats 1000000 in
/-- A middle reduction step leaves in the accumulator what it held plus the block product. -/
theorem sout_B (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : ¬cond1_1 i) (x0 : Vec F S1x512x1024 .f32) (x1 : Vec F S1x1024x256 .f32) (x2 : Vec F S1x512x256 .f32) (x3 : Vec F S1x512x256 .f32) (x4 : Vec F S1x1x256 .f32) (xs0 : Vec F S512x256 .f32) :
    sout1_B_0 c i arg3 harg3 arg4 harg4 arg5 harg5 arg6 harg6 arg7 harg7 arg8 harg8 arg9 harg9 hc0 hc1 x0 x1 x2 x3 x4 xs0 = k1_pay2 x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero (S := S512x256) hz2]
  simp only [View.readAt_eq_ld, harg3.read_unread, harg4.read_unread, harg5.read_unread, harg6.read_unread, harg7.read_unread, harg9.read_unread, View.ld_unit_zero (S := S1x512x1024) hz3, View.ld_unit_zero (S := S1x1024x256) hz3, View.ld_unit_zero (S := S1x512x256) hz3, View.ld_unit_zero (S := S1x1x256) hz3, View.ld_unit_zero (S := S512x256) hz2]

set_option maxHeartbeats 1000000 in
/-- So does the last step, -/
theorem sout_C (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i) (x0 : Vec F S1x512x1024 .f32) (x1 : Vec F S1x1024x256 .f32) (x2 : Vec F S1x512x256 .f32) (x3 : Vec F S1x512x256 .f32) (x4 : Vec F S1x1x256 .f32) (xs0 : Vec F S512x256 .f32) :
    sout1_C_0 c i arg3 harg3 arg4 harg4 arg5 harg5 arg6 harg6 arg7 harg7 arg8 harg8 arg9 harg9 hc0 hc1 x0 x1 x2 x3 x4 xs0 = k1_pay2 x0 x1 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S512x256) hz2]
  simp only [View.readAt_eq_ld, harg3.read_unread, harg4.read_unread, harg5.read_unread, harg6.read_unread, harg7.read_unread, harg9.read_unread, View.ld_unit_zero (S := S1x512x1024) hz3, View.ld_unit_zero (S := S1x1024x256) hz3, View.ld_unit_zero (S := S1x512x256) hz3, View.ld_unit_zero (S := S1x1x256) hz3, View.ld_unit_zero (S := S512x256) hz2]

set_option maxHeartbeats 1000000 in
/-- which leaves in the output's buffer that new accumulator plus the pooled block, the vertex block and the row. -/
theorem out_C (c : Dev nD) (i : grid1.Coords) (arg3 : Memref sig .tc .vmem S1x512x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S1x1x256 .f32) (harg7 : arg7.IsWhole) (arg8 : Memref sig .tc .vmem S1x512x256 .f32) (harg8 : arg8.IsWhole) (arg9 : Memref sig .tc .vmem S512x256 .f32) (harg9 : arg9.IsWhole) (hc0 : ¬cond1_0 i) (hc1 : cond1_1 i) (x0 : Vec F S1x512x1024 .f32) (x1 : Vec F S1x1024x256 .f32) (x2 : Vec F S1x512x256 .f32) (x3 : Vec F S1x512x256 .f32) (x4 : Vec F S1x1x256 .f32) (xs0 : Vec F S512x256 .f32) :
    out1_C_5 c i arg3 harg3 arg4 harg4 arg5 harg5 arg6 harg6 arg7 harg7 arg8 harg8 arg9 harg9 hc0 hc1 x0 x1 x2 x3 x4 xs0 = k1_pay3 (k1_pay2 x0 x1 xs0) x2 x3 x4 := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero (S := S1x512x256) hz3, View.readCov_unit_zero (S := S512x256) _ hz2]
  simp only [View.readAt_eq_ld, harg3.read_unread, harg4.read_unread, harg5.read_unread, harg6.read_unread, harg7.read_unread, harg9.read_unread, View.ld_unit_zero (S := S1x512x1024) hz3, View.ld_unit_zero (S := S1x1024x256) hz3, View.ld_unit_zero (S := S1x512x256) hz3, View.ld_unit_zero (S := S1x1x256) hz3, View.ld_unit_zero (S := S512x256) hz2]

/-! ## The input blocks read at an index

A grid point is (batch b, output tile j, reduction step k), t = 16 b + 4 j + k. A block's coordinate in its array is the
block index times the block's extent plus the coordinate inside it. -/

/-- The six windows' block indices, decided over the grid. -/
theorem idx_facts : ∀ t : Fin cfg1.N,
    (win1_0.index t (0 : Fin 3) = t.val / 16 ∧ win1_0.index t (1 : Fin 3) = t.val / 4 % 4 ∧ win1_0.index t (2 : Fin 3) = t.val % 4)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val / 4 % 4 ∧ win1_2.index t (2 : Fin 3) = 0)
    ∧ (win1_3.index t (0 : Fin 3) = t.val / 16 ∧ win1_3.index t (1 : Fin 3) = t.val / 4 % 4 ∧ win1_3.index t (2 : Fin 3) = 0)
    ∧ (win1_4.index t (0 : Fin 3) = t.val / 16 ∧ win1_4.index t (1 : Fin 3) = 0 ∧ win1_4.index t (2 : Fin 3) = 0)
    ∧ (win1_5.index t (0 : Fin 3) = t.val / 16 ∧ win1_5.index t (1 : Fin 3) = t.val / 4 % 4 ∧ win1_5.index t (2 : Fin 3) = 0) :=
  (by decide +kernel : ∀ t : Fin grid1.N, _)

section
variable (V : (c : Dev nD) → (b : Ref sig .tc) → Buf (Elt F) ((c : Thread nD τ).loc b))

set_option maxHeartbeats 1000000 in
/-- The connection block at point t = 16 b + 4 j + k, at (0, n, r): the array at (b, 512 j + n, 1024 k + r). -/
theorem iblk1_0_apply (c : Dev nD) (t : Fin cfg1.N) (b : Fin 4) (j k : ℕ) (hj : j < 4) (hk : k < 4) (ht : t.val = b.val * 16 + j * 4 + k)
    (n : Fin 512) (r : Fin 1024) :
    (iblk1 V c 0 t : Vec F S1x512x1024 .f32) (ix3 0 n r)
      = V c main_arg4 (ix3 b ⟨j * 512 + n.val, by omega⟩ ⟨k * 1024 + r.val, by omega⟩) := by
  obtain ⟨⟨e0, e1, e2⟩, -⟩ := idx_facts t
  unfold iblk1
  rw [View.read_apply]
  show V c main_arg4 (((cfg1.win 0).blk t).view.emb (ix3 0 n r)) = _
  congr 1
  funext a
  apply Fin.ext
  match a with
  | ⟨0, _⟩ => show win1_0.index t (0 : Fin 3) * 1 + 1 * 0 = b.val; omega
  | ⟨1, _⟩ => show win1_0.index t (1 : Fin 3) * 512 + 1 * n.val = j * 512 + n.val; omega
  | ⟨2, _⟩ => show win1_0.index t (2 : Fin 3) * 1024 + 1 * r.val = k * 1024 + r.val; omega

set_option maxHeartbeats 1000000 in
/-- The edge block at t, at (0, r, d): the array at (b, 1024 k + r, d). -/
theorem iblk1_1_apply (c : Dev nD) (t : Fin cfg1.N) (b : Fin 4) (j k : ℕ) (hj : j < 4) (hk : k < 4) (ht : t.val = b.val * 16 + j * 4 + k)
    (r : Fin 1024) (d : Fin 256) :
    (iblk1 V c 1 t : Vec F S1x1024x256 .f32) (ix3 0 r d)
      = V c main_arg1 (ix3 b ⟨k * 1024 + r.val, by omega⟩ d) := by
  obtain ⟨-, ⟨e0, e1, e2⟩, -⟩ := idx_facts t
  unfold iblk1
  rw [View.read_apply]
  show V c main_arg1 (((cfg1.win 1).blk t).view.emb (ix3 0 r d)) = _
  congr 1
  funext a
  apply Fin.ext
  match a with
  | ⟨0, _⟩ => show win1_1.index t (0 : Fin 3) * 1 + 1 * 0 = b.val; omega
  | ⟨1, _⟩ => show win1_1.index t (1 : Fin 3) * 1024 + 1 * r.val = k * 1024 + r.val; omega
  | ⟨2, _⟩ => show win1_1.index t (2 : Fin 3) * 256 + 1 * d.val = d.val; omega

set_option maxHeartbeats 1000000 in
/-- The pooled block at t, at (0, n, d): the array at (b, 512 j + n, d). -/
theorem iblk1_2_apply (c : Dev nD) (t : Fin cfg1.N) (b : Fin 4) (j k : ℕ) (hj : j < 4) (hk : k < 4) (ht : t.val = b.val * 16 + j * 4 + k)
    (n : Fin 512) (d : Fin 256) :
    (iblk1 V c 2 t : Vec F S1x512x256 .f32) (ix3 0 n d)
      = V c main_v0 (ix3 b ⟨j * 512 + n.val, by omega⟩ d) := by
  obtain ⟨-, -, ⟨e0, e1, e2⟩, -⟩ := idx_facts t
  unfold iblk1
  rw [View.read_apply]
  show V c main_v0 (((cfg1.win 2).blk t).view.emb (ix3 0 n d)) = _
  congr 1
  funext a
  apply Fin.ext
  match a with
  | ⟨0, _⟩ => show win1_2.index t (0 : Fin 3) * 1 + 1 * 0 = b.val; omega
  | ⟨1, _⟩ => show win1_2.index t (1 : Fin 3) * 512 + 1 * n.val = j * 512 + n.val; omega
  | ⟨2, _⟩ => show win1_2.index t (2 : Fin 3) * 256 + 1 * d.val = d.val; omega

set_option maxHeartbeats 1000000 in
/-- The vertex block at t, at (0, n, d): the array at (b, 512 j + n, d). -/
theorem iblk1_3_apply (c : Dev nD) (t : Fin cfg1.N) (b : Fin 4) (j k : ℕ) (hj : j < 4) (hk : k < 4) (ht : t.val = b.val * 16 + j * 4 + k)
    (n : Fin 512) (d : Fin 256) :
    (iblk1 V c 3 t : Vec F S1x512x256 .f32) (ix3 0 n d)
      = V c main_arg0 (ix3 b ⟨j * 512 + n.val, by omega⟩ d) := by
  obtain ⟨-, -, -, ⟨e0, e1, e2⟩, -⟩ := idx_facts t
  unfold iblk1
  rw [View.read_apply]
  show V c main_arg0 (((cfg1.win 3).blk t).view.emb (ix3 0 n d)) = _
  congr 1
  funext a
  apply Fin.ext
  match a with
  | ⟨0, _⟩ => show win1_3.index t (0 : Fin 3) * 1 + 1 * 0 = b.val; omega
  | ⟨1, _⟩ => show win1_3.index t (1 : Fin 3) * 512 + 1 * n.val = j * 512 + n.val; omega
  | ⟨2, _⟩ => show win1_3.index t (2 : Fin 3) * 256 + 1 * d.val = d.val; omega

set_option maxHeartbeats 1000000 in
/-- The row block at t, at (0, 0, d): the array at (b, 0, d). -/
theorem iblk1_4_apply (c : Dev nD) (t : Fin cfg1.N) (b : Fin 4) (j k : ℕ) (hj : j < 4) (hk : k < 4) (ht : t.val = b.val * 16 + j * 4 + k)
    (d : Fin 256) :
    (iblk1 V c 4 t : Vec F S1x1x256 .f32) (ix3 0 0 d)
      = V c main_v1 (ix3 b 0 d) := by
  obtain ⟨-, -, -, -, ⟨e0, e1, e2⟩, -⟩ := idx_facts t
  unfold iblk1
  rw [View.read_apply]
  show V c main_v1 (((cfg1.win 4).blk t).view.emb (ix3 0 0 d)) = _
  congr 1
  funext a
  apply Fin.ext
  match a with
  | ⟨0, _⟩ => show win1_4.index t (0 : Fin 3) * 1 + 1 * 0 = b.val; omega
  | ⟨1, _⟩ => show win1_4.index t (1 : Fin 3) * 1 + 1 * 0 = 0; omega
  | ⟨2, _⟩ => show win1_4.index t (2 : Fin 3) * 256 + 1 * d.val = d.val; omega
end

open Cert.Pool

/-! ## The accumulation over a (batch, tile) pair's four reduction steps, over the extended reals -/

section
variable (V : (c : Dev nD) → (b : Ref sig .tc) → Buf (Elt Ideal) ((c : Thread nD τ).loc b))

/-- The five arrays region 1 reads, entry by entry, as extended reals. -/
abbrev conAt (c : Dev nD) (i : S4x2048x4096.Idx) : EReal := V c main_arg4 i
abbrev edgeAt (c : Dev nD) (i : S4x4096x256.Idx) : EReal := V c main_arg1 i
abbrev poolAt (c : Dev nD) (i : S4x2048x256.Idx) : EReal := V c main_v0 i
abbrev vertAt (c : Dev nD) (i : S4x2048x256.Idx) : EReal := V c main_arg0 i
abbrev rowAt (c : Dev nD) (i : S4x1x256.Idx) : EReal := V c main_v1 i

/-- The terms of row (b, 512 j + n)'s edge sum at column d, as a function of the edge's number (zero past the last edge). -/
def term (c : Dev nD) (b : Fin 4) (j : ℕ) (hj : j < 4) (n : Fin 512) (d : Fin 256) : ℕ → EReal := fun x =>
  if h : x < 4096 then conAt V c (ix3 b ⟨j * 512 + n.val, by omega⟩ ⟨x, h⟩) * edgeAt V c (ix3 b ⟨x, h⟩ d) else 0

/-- One block's sum, over two blocks that read the arrays at the point's offsets, is the next 1024 terms. -/
theorem block_sum (c : Dev nD) (b : Fin 4) (j k : ℕ) (hj : j < 4) (hk : k < 4) (n : Fin 512) (d : Fin 256)
    (x0 : Vec Ideal S1x512x1024 .f32) (x1 : Vec Ideal S1x1024x256 .f32)
    (e0 : ∀ r : Fin 1024, x0 (ix3 0 n r) = conAt V c (ix3 b ⟨j * 512 + n.val, by omega⟩ ⟨k * 1024 + r.val, by omega⟩))
    (e1 : ∀ r : Fin 1024, x1 (ix3 0 r d) = edgeAt V c (ix3 b ⟨k * 1024 + r.val, by omega⟩ d)) :
    ∑ r : Fin 1024, x0 (ix3 0 n r) * x1 (ix3 0 r d) = ∑ r : Fin 1024, term V c b j hj n d (k * 1024 + r.val) := by
  refine Finset.sum_congr rfl fun r _ => ?_
  rw [e0 r, e1 r]
  have hr := r.isLt
  unfold term
  rw [dif_pos (show k * 1024 + r.val < 4096 by omega)]

set_option maxHeartbeats 2000000 in
/-- After reduction step k of the pair (b, j) the accumulator holds the first k + 1 blocks' sums, in order. -/
theorem acc_step (c : Dev nD) (b : Fin 4) (j : ℕ) (hj : j < 4) (n : Fin 512) (d : Fin 256) :
    ∀ (k : ℕ) (hk : k < 4) (t : Fin cfg1.N) (ht : t.val = b.val * 16 + j * 4 + k),
      (outsAt1 V c t.val t.isLt).2 (ix2 n d) = partialSum (term V c b j hj n d) (k + 1)
  | 0, hk, t, ht => by
    have h0 : t.val % 4 = 0 := by omega
    rw [outsAt1_A V c t h0]
    dsimp only
    rw [sout_A, PayIdeal.pay1_2, PayIdeal.pay1_1, block_sum V c b j 0 hj hk n d (iblk1 V c 0 t) (iblk1 V c 1 t) (fun r => iblk1_0_apply V c t b j 0 hj hk ht n r) (fun r => iblk1_1_apply V c t b j 0 hj hk ht r d), partialSum_succ, partialSum_zero]
  | k + 1, hk, t, ht => by
    have h0 : ¬t.val % 4 = 0 := by omega
    have hN : cfg1.N = 64 := N_1
    have ih := acc_step c b j hj n d k (by omega) ⟨t.val - 1, Nat.lt_of_le_of_lt (Nat.sub_le _ _) t.isLt⟩ (by dsimp only; omega)
    by_cases h1 : t.val % 4 = 3
    · rw [outsAt1_C V c t h0 h1]
      dsimp only
      rw [sout_C, PayIdeal.pay1_2, block_sum V c b j (k + 1) hj hk n d (iblk1 V c 0 t) (iblk1 V c 1 t) (fun r => iblk1_0_apply V c t b j (k + 1) hj hk ht n r) (fun r => iblk1_1_apply V c t b j (k + 1) hj hk ht r d), partialSum_succ _ (k + 1)]
      exact congrArg (· + _) ih
    · rw [outsAt1_B V c t h0 h1]
      dsimp only
      rw [sout_B, PayIdeal.pay1_2, block_sum V c b j (k + 1) hj hk n d (iblk1 V c 0 t) (iblk1 V c 1 t) (fun r => iblk1_0_apply V c t b j (k + 1) hj hk ht n r) (fun r => iblk1_1_apply V c t b j (k + 1) hj hk ht r d), partialSum_succ _ (k + 1)]
      exact congrArg (· + _) ih

set_option maxHeartbeats 2000000 in
/-- After the last reduction step of the pair (b, j) the output's buffer holds, at (0, n, d), the whole edge sum of row
    512 j + n plus the pooled entry, the vertex entry and the row's entry there. -/
theorem out_last (c : Dev nD) (t : Fin cfg1.N) (b : Fin 4) (j : ℕ) (hj : j < 4) (ht : t.val = b.val * 16 + j * 4 + 3)
    (n : Fin 512) (d : Fin 256) :
    (outsAt1 V c t.val t.isLt).1 (ix3 0 n d)
      = ((pooledE (V c main_arg4) (V c main_arg1) b ⟨j * 512 + n.val, by omega⟩ d
          + poolAt V c (ix3 b ⟨j * 512 + n.val, by omega⟩ d))
          + vertAt V c (ix3 b ⟨j * 512 + n.val, by omega⟩ d))
          + rowAt V c (ix3 b 0 d) := by
  have h0 : ¬t.val % 4 = 0 := by omega
  have h1 : t.val % 4 = 3 := by omega
  have hN : cfg1.N = 64 := N_1
  rw [outsAt1_C V c t h0 h1]
  dsimp only
  rw [out_C, PayIdeal.pay1_3, PayIdeal.pay1_2, block_sum V c b j 3 hj (by omega) n d (iblk1 V c 0 t) (iblk1 V c 1 t) (fun r => iblk1_0_apply V c t b j 3 hj (by omega) ht n r) (fun r => iblk1_1_apply V c t b j 3 hj (by omega) ht r d),
    acc_step V c b j hj n d 2 (by omega) ⟨t.val - 1, Nat.lt_of_le_of_lt (Nat.sub_le _ _) t.isLt⟩ (by dsimp only; omega),
    ← partialSum_succ _ 3,
    iblk1_2_apply V c t b j 3 hj (by omega) ht n d, iblk1_3_apply V c t b j 3 hj (by omega) ht n d,
    iblk1_4_apply V c t b j 3 hj (by omega) ht d]
  have e : partialSum (term V c b j hj n d) (3 + 1) = pooledE (V c main_arg4) (V c main_arg1) b ⟨j * 512 + n.val, by omega⟩ d := by
    unfold pooledE
    exact partialSum_four (fun x : Fin 4096 => conAt V c (ix3 b ⟨j * 512 + n.val, by omega⟩ x) * edgeAt V c (ix3 b x d))
  rw [e]
end

end Cert.KernelIdeal.Val1

end
-- ==== Proof.KI.Value1d.lean ====
/- Region 1 (the finalizing kernel), from its blocks to its output array, at the exact (extended-real) instance: the array the
   region leaves is, index by index,

       out[b, n, d] = ((Σ_k conEd[b, n, k] · e[b, k, d]  +  pooled[b, n, d])  +  v[b, n, d])  +  u[b, 0, d],

   the last reduction step of each (batch, tile) pair writing the tile's block, and the tiles covering the array. -/
import proofs.«130677_j58480274702421_2_alg».proof.Proof.KI.Value1

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)
open Cert.Pool

/-! ## From the blocks to the array

The output's block at the grid point t = 16 b + 4 j + k is block (b, j, 0) of the [4, 2048, 256] array, written back after the
last reduction step (k = 3) only; the four tiles of the four batches cover the array. -/

section
variable (V : (c : Dev nD) → (b : Ref sig .tc) → Buf (Elt Ideal) ((c : Thread nD τ).loc b))

/-- The result as one array: the edge sum plus the pooled entry plus the vertex entry plus the batch's row entry. -/
abbrev outArr (c : Dev nD) : S4x2048x256.Idx → EReal :=
  fun i => ((pooledE (V c main_arg4) (V c main_arg1) (i 0) (i 1) (i 2) + poolAt V c i) + vertAt V c i)
    + rowAt V c (ix3 (i 0) 0 (i 2))

set_option maxHeartbeats 1000000 in
/-- What a point of the last reduction step leaves in the output's buffer, at a block index y: the result array where the
    block sits in the array. -/
theorem flushed_apply (c : Dev nD) (t : Fin cfg1.N) (hlast : t.val % 4 = 3) (y : S1x512x256.Idx) :
    (outsAt1 V c t.val t.isLt).1 y = outArr V c (((cfg1.win 5).blk t).view.emb y) := by
  have hN : cfg1.N = 64 := N_1
  have ht := t.isLt
  obtain ⟨-, -, -, -, -, e0, e1, e2⟩ := idx_facts t
  obtain ⟨u, n, d, rfl⟩ : ∃ (u : Fin 1) (n : Fin 512) (d : Fin 256), y = ix3 u n d := ⟨y 0, y 1, y 2, eq_ix3 y⟩
  obtain rfl : u = 0 := Subsingleton.elim _ _
  have hb : t.val / 16 < 4 := by omega
  have hn := n.isLt
  have hd := d.isLt
  rw [out_last V c t ⟨t.val / 16, hb⟩ (t.val / 4 % 4) (by omega) (by dsimp only; omega) n d]
  have q : (ix3 (⟨t.val / 16, hb⟩ : Fin 4) (⟨t.val / 4 % 4 * 512 + n.val, by omega⟩ : Fin 2048) d : S4x2048x256.Idx)
      = ((cfg1.win 5).blk t).view.emb (ix3 0 n d) := funext fun a => Fin.ext (by
    match a with
    | ⟨0, _⟩ => show t.val / 16 = win1_5.index t (0 : Fin 3) * 1 + 1 * 0; omega
    | ⟨1, _⟩ => show t.val / 4 % 4 * 512 + n.val = win1_5.index t (1 : Fin 3) * 512 + 1 * n.val; omega
    | ⟨2, _⟩ => show d.val = win1_5.index t (2 : Fin 3) * 256 + 1 * d.val; omega)
  rw [← q]

set_option maxHeartbeats 1000000 in
/-- What a point writes back is its block of the result array. -/
theorem flushed_eq (c : Dev nD) (t : Fin cfg1.N) (hf : (cfg1.win 5).flush t = true) :
    (dat1 V c).flushed 5 t = ((cfg1.win 5).blk t).view.read (Elt Ideal) (outArr V c) := by
  show (cfg1.win 5).cut (grid1.coords t) ((dat1 V c).after 5 t) = _
  rw [after1_5]
  funext y
  rw [View.read_apply]
  exact flushed_apply V c t ((flush1_5 t).mp hf) y

/-- An index of the array is in point t's block iff each coordinate is in the block's range on its axis. -/
theorem mem_blk (t : Fin cfg1.N) (i : S4x2048x256.Idx) :
    i ∈ ((cfg1.win 5).blk t).view.set ↔ ∀ a : Fin 3, win1_5.index t a * S1x512x256.size a ≤ (i a).val ∧ (i a).val < win1_5.index t a * S1x512x256.size a + S1x512x256.size a := by
  show i ∈ ((View.whole main_v2).slice (win1_5.rect t)).set ↔ _
  rw [View.set_slice_whole, Rect.mem_set_unit]
  exact Iff.rfl

set_option maxHeartbeats 1000000 in
/-- Row n of batch b is written back by the last reduction step of the pair (b, n / 512). -/
theorem cover (i : S4x2048x256.Idx) :
    ∃ t : Fin cfg1.N, (cfg1.win 5).flush t = true ∧ i ∈ ((cfg1.win 5).blk t).view.set := by
  have hN : cfg1.N = 64 := N_1
  have h0 : (i 0).val < 4 := (i 0).isLt
  have h1 : (i 1).val < 2048 := (i 1).isLt
  have h2 : (i 2).val < 256 := (i 2).isLt
  have hlt : (i 0).val * 16 + (i 1).val / 512 * 4 + 3 < cfg1.N := by omega
  refine ⟨⟨(i 0).val * 16 + (i 1).val / 512 * 4 + 3, hlt⟩, (flush1_5 _).mpr (by dsimp only; omega), ?_⟩
  rw [mem_blk]
  obtain ⟨-, -, -, -, -, e0, e1, e2⟩ := idx_facts ⟨(i 0).val * 16 + (i 1).val / 512 * 4 + 3, hlt⟩
  dsimp only at e0 e1 e2
  intro a
  match a with
  | ⟨0, _⟩ =>
    show win1_5.index _ (0 : Fin 3) * 1 ≤ (i 0).val ∧ (i 0).val < win1_5.index _ (0 : Fin 3) * 1 + 1
    omega
  | ⟨1, _⟩ =>
    show win1_5.index _ (1 : Fin 3) * 512 ≤ (i 1).val ∧ (i 1).val < win1_5.index _ (1 : Fin 3) * 512 + 512
    omega
  | ⟨2, _⟩ =>
    show win1_5.index _ (2 : Fin 3) * 256 ≤ (i 2).val ∧ (i 2).val < win1_5.index _ (2 : Fin 3) * 256 + 256
    omega

/-- The region's output array ends holding the result array. -/
theorem out_array (c : Dev nD) : (dat1 V c).arrAt 5 cfg1.N = outArr V c :=
  (dat1 V c).arrAt_eq_of_cover 5 (outArr V c) (flushed_eq V c) cover

/-- … index by index. -/
theorem out_apply (c : Dev nD) (b : Fin 4) (n : Fin 2048) (d : Fin 256) :
    (dat1 V c).arrAt 5 cfg1.N (ix3 b n d)
      = ((pooledE (V c main_arg4) (V c main_arg1) b n d + poolAt V c (ix3 b n d)) + vertAt V c (ix3 b n d))
          + rowAt V c (ix3 b 0 d) :=
  congrFun (out_array V c) (ix3 b n d)
end

end Cert.KernelIdeal.Val1

end
-- ==== Proof.KI.Final.lean ====
import proofs.«130677_j58480274702421_2_alg».proof.Proof.KI.Assembly
import proofs.«130677_j58480274702421_2_alg».proof.Proof.KI.Value0
import proofs.«130677_j58480274702421_2_alg».proof.Proof.KI.Value1d
import proofs.«130677_j58480274702421_2_alg».proof.Proof.Spec
import Idealize.ShloMosaic.Lib.Pipeline.Value

set_option maxRecDepth 16384

noncomputable section

namespace Cert.KernelIdeal.Final

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

open Cert.Pool

/-! # The kernel program's result, as one function of its arguments

Region 1 finds the pooled array region 0 left, the arguments as launched, and the row array the host stretch made from the
third argument (each batch's row repeated along a unit axis). So what it leaves is the specification's sum. -/

/-- The row array read at (b, 0, d) is the third argument at (b, d). -/
theorem row_apply (x : S4x256.Idx → EReal) (b : Fin 4) (d : Fin 256) :
    broadcastInDim S4x1x256 ![0, 2] bcast_S4x256_S4x1x256_0_2 x (ix3 b 0 d) = x (ix2 b d) :=
  broadcastInDim_apply _ bcast_S4x256_S4x1x256_0_2 x (ix3 b 0 d) (ix2 b d) (fun a => match a with
    | ⟨0, _⟩ => by show b.val = if (4 : Nat) = 1 then 0 else b.val; rw [if_neg (by decide)]
    | ⟨1, _⟩ => by show d.val = if (256 : Nat) = 1 then 0 else d.val; rw [if_neg (by decide)])

variable (m : (ℓ : Loc nD τ sig) → Buf (Elt Ideal) ℓ)

/-- The output array after the run is the specification of the launch contents. -/
theorem final (c : Dev nD) :
    (dat1 (Vb m) c).arrAt 5 cfg1.N
      = Cert.Pool.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext i
  obtain ⟨b, n, d, rfl⟩ : ∃ (b : Fin 4) (n : Fin 2048) (d : Fin 256), i = ix3 b n d := ⟨i 0, i 1, i 2, eq_ix3 i⟩
  rw [Val1.out_apply, Cert.Pool.out_apply]
  show ((pooledE (Vb m c main_arg4) (Vb m c main_arg1) b n d + Vb m c main_v0 (ix3 b n d)) + Vb m c main_arg0 (ix3 b n d)) + Vb m c main_v1 (ix3 b 0 d) = _
  rw [Vb_main_arg4, Vb_main_arg1, Vb_main_arg0, Vb_main_v0, Vb_main_v1, Val0.pooled_apply, row_apply]

end Cert.KernelIdeal.Final

end
-- ==== Proof.RefIsSpec.lean ====
/- The reference program's result is the specification: its two contractions are the two pooled sums, its two
   broadcasts read u at (b, d), and its additions ((v + pooledV) + pooledE) + u are regrouped, by commutativity
   and associativity of + on the extended reals, into the specification's order ((pooledE + pooledV) + v) + u. -/
import proofs.«130677_j58480274702421_2_alg».proof.Proof.Spec
import proofs.«130677_j58480274702421_2_alg».proof.Proof.Gen.ReferenceIdeal.Read

noncomputable section

namespace Cert.Pool

open Idealize.ShloMosaic Idealize.ShloMosaic.ValueIdx Cert.ReferenceIdeal Cert.ReferenceIdeal.Read
open scoped BigOperators

/-- The regrouping of the three addends. -/
theorem regroup (a p q : EReal) : (a + p) + q = (q + p) + a := by
  rw [add_comm a p, add_comm (p + a) q, add_assoc]

set_option maxHeartbeats 400000 in
theorem ref_eq (x0 : (⟨S4x2048x256, .f32⟩ : BufTy).Contents (Elt Ideal)) (x1 : (⟨S4x4096x256, .f32⟩ : BufTy).Contents (Elt Ideal))
    (x2 : (⟨S4x256, .f32⟩ : BufTy).Contents (Elt Ideal)) (x3 : (⟨S4x2048x2048, .f32⟩ : BufTy).Contents (Elt Ideal))
    (x4 : (⟨S4x2048x4096, .f32⟩ : BufTy).Contents (Elt Ideal)) :
    val_main_v6 (F := Ideal) x0 x1 x2 x3 x4 = out x0 x1 x2 x3 x4 := by
  funext i
  obtain ⟨b, n, d, rfl⟩ : ∃ (b : Fin 4) (n : Fin 2048) (d : Fin 256), i = ix3 b n d := ⟨i 0, i 1, i 2, eq_ix3 i⟩
  have el0 : ∀ k : Fin 2048, lidx_main_v0 (ix3 b n d) k = ix3 b k n := fun k => funext fun a => Fin.ext (by
    match a with | ⟨0, _⟩ => rfl | ⟨1, _⟩ => rfl | ⟨2, _⟩ => rfl)
  have er0 : ∀ k : Fin 2048, ridx_main_v0 (ix3 b n d) k = ix3 b k d := fun k => funext fun a => Fin.ext (by
    match a with | ⟨0, _⟩ => rfl | ⟨1, _⟩ => rfl | ⟨2, _⟩ => rfl)
  have el1 : ∀ k : Fin 4096, lidx_main_v1 (ix3 b n d) k = ix3 b n k := fun k => funext fun a => Fin.ext (by
    match a with | ⟨0, _⟩ => rfl | ⟨1, _⟩ => rfl | ⟨2, _⟩ => rfl)
  have er1 : ∀ k : Fin 4096, ridx_main_v1 (ix3 b n d) k = ix3 b k d := fun k => funext fun a => Fin.ext (by
    match a with | ⟨0, _⟩ => rfl | ⟨1, _⟩ => rfl | ⟨2, _⟩ => rfl)
  have eu : idx_main_v4 (idx_main_v5 (ix3 b n d)) = ix2 b d := funext fun a => Fin.ext (by
    match a with | ⟨0, _⟩ => rfl | ⟨1, _⟩ => rfl)
  rw [val_main_v6_apply, val_main_v3_apply, val_main_v2_apply, val_main_v0_apply, val_main_v1_apply,
    val_main_v5_apply, val_main_v4_apply, out_apply]
  simp only [el0, er0, el1, er1, eu]
  exact congrArg (· + x2 (ix2 b d)) (regroup _ _ _)

end Cert.Pool

end
-- ==== Proof.lean ====
/- The proof of `Cert.Claim` for the vertex-pooling kernel against its reference.

   The kernel computes, in two grid kernels, out[b,n,d] = ((Σ_e conEd[b,n,e]·e_in[b,e,d] + Σ_m adj[b,m,n]·v[b,m,d]) + v[b,n,d]) + u[b,d]:
   the first kernel accumulates the vertex sum over two blocks of 1024 rows into a scratch accumulator and copies it out at the last
   step; the second accumulates the edge sum over four blocks of 1024 and adds the three other terms at the last step. The reference
   computes ((v + Σ_m adj·v) + Σ_e conEd·e_in) + u with two whole contractions. Over the extended reals the two are the same sum:
   a sum regrouped into consecutive blocks, zero as the starting accumulator, and additions re-associated and commuted.

   Frames: each kernel program's run is assembled from its two kernel regions, each with the invariant that names the accumulator's
   contents after every grid point; the reference's is its run with the result dropped. The ideal pass rewrote nothing. -/
import proofs.«130677_j58480274702421_2_alg».proof.Defs
import proofs.«130677_j58480274702421_2_alg».proof.Proof.Gen.Kernel
import proofs.«130677_j58480274702421_2_alg».proof.Proof.Gen.KernelIdeal
import proofs.«130677_j58480274702421_2_alg».proof.Proof.Gen.ReferenceIdeal
import proofs.«130677_j58480274702421_2_alg».proof.Proof.Gen.Pre_finite_inputs
import proofs.«130677_j58480274702421_2_alg».proof.Proof.Gen.ReferenceIdeal.Read
import proofs.«130677_j58480274702421_2_alg».proof.Proof.K.Assembly
import proofs.«130677_j58480274702421_2_alg».proof.Proof.KI.Assembly
import proofs.«130677_j58480274702421_2_alg».proof.Proof.KI.Final
import proofs.«130677_j58480274702421_2_alg».proof.Proof.RefIsSpec
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2) (Cert.ReferenceIdeal.Value.run (F := Ideal) m ρ)

theorem preserves : Cert.preserves_Kernel_KernelIdeal := trivial

/-- Both idealized programs end with the specification's array of the (agreeing) arguments, and pass the other five
    arguments through unchanged. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Pool.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4),
    fun c => m ((c.tc : Thread Cert.KernelIdeal.nD Cert.KernelIdeal.τ).loc Cert.KernelIdeal.main_arg5), ?_, ?_⟩
  · refine (θ_run Cert.KernelIdeal.defs _ _).mono (fun _ h c => ?_) (Cert.KernelIdeal.Fr.run_named (F := Ideal) m ρ)
    obtain ⟨hv, h0, h1, h2, h3, h4, h5⟩ := h c
    exact ⟨hv.trans (Cert.KernelIdeal.Final.final m c), h1, h2, h3, h4, h5, h0, h1, h2, h3, h4, h5⟩
  · refine (θ_run Cert.ReferenceIdeal.defs _ _).mono (fun _ h c => ?_) (Cert.ReferenceIdeal.Value.run (F := Ideal) m' ρ')
    obtain ⟨hv, r1, r2, r3, r4, r5, k0, k1, k2, k3, k4, k5⟩ := h c
    obtain ⟨a0, a1, a2, a3, a4, a5⟩ := hagree c
    refine ⟨?_, r1.trans a1, r2.trans a2, r3.trans a3, r4.trans a4, r5.trans a5, k0, k1, k2, k3, k4, k5⟩
    rw [hv, Cert.ReferenceIdeal.Read.val_main_v6_eq, Cert.Pool.ref_eq, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
